-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S12x2048x2048 : Shape := ⟨3, ![12, 2048, 2048]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S12x2048x2048 : S_.BroadcastsInDim S12x2048x2048 (![] : Fin 0 → Fin S12x2048x2048.rank)
  reducesTo_S12x2048x2048_S_d0_1_2 : S12x2048x2048.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768x768 .f32) (main_arg5 : FVec F S768x768 .f32) (main_arg6 : FVec F S768x768 .f32) (main_arg7 : FVec F S768x768 .f32) (main_arg8 : FVec F S768 .f32) (main_v13 : IVec S_ 1) (main_v16 : IVec S12x2048x2048 1) : IVec S_ 1 :=
  let main_c_5 : IVec S_ 1 := constantI S_ 1 1#1
  let main_v17 : IVec S_ 1 := (fun x v => Host.reduce IntOp.andi x v reducesTo_S12x2048x2048_S_d0_1_2 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_v33

def fn {F : FTy → Type} [FloatOps F] (main_arg0 : FVec F S4x2048x768 .f32) (main_arg1 : FVec F S4x2048x768 .f32) (main_arg2 : FVec F S4x2048x768 .f32) (main_arg3 : FVec F S12x2048x2048 .f32) (main_arg4 : FVec F S768x768 .f32) (main_arg5 : FVec F S768x768 .f32) (main_arg6 : FVec F S768x768 .f32) (main_arg7 : FVec F S768x768 .f32) (main_arg8 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S4x2048x768 .f32 := Host.absf main_arg1
  let main_cst_0 : FVec F S_ .f32 := constant S_ .f32 0x7F800000#32
  let main_v5 : FVec F S4x2048x768 .f32 := broadcastInDim S4x2048x768 ![] bcast_S_S4x2048x768 main_cst_0
  let main_v6 : IVec S4x2048x768 1 := cmpf .olt main_v4 main_v5
  let main_c_1 : IVec S_ 1 := constantI S_ 1 1#1
  let main_v7 : IVec S_ 1 := (fun x v => Host.reduce IntOp.andi x v reducesTo_S4x2048x768_S_d0_1_2 h_S_) main_v6 main_c_1
  let main_v8 : IVec S_ 1 := andi main_v3 main_v7
  let main_v9 : FVec F S4x2048x768 .f32 := Host.absf main_arg2
  let main_cst_2 : FVec F S_ .f32 := constant S_ .f32 0x7F800000#32
  let main_v10 : FVec F S4x2048x768 .f32 := broadcastInDim S4x2048x768 ![] bcast_S_S4x2048x768 main_cst_2
  let main_v11 : IVec S4x2048x768 1 := cmpf .olt main_v9 main_v10
  let main_c_3 : IVec S_ 1 := constantI S_ 1 1#1
  let main_v12 : IVec S_ 1 := (fun x v => Host.reduce IntOp.andi x v reducesTo_S4x2048x768_S_d0_1_2 h_S_) main_v11 main_c_3
  let main_v13 : IVec S_ 1 := andi main_v8 main_v12
  let main_v14 : FVec F S12x2048x2048 .f32 := Host.absf main_arg3
  let main_cst_4 : FVec F S_ .f32 := constant S_ .f32 0x7F800000#32
  let main_v15 : FVec F S12x2048x2048 .f32 := broadcastInDim S12x2048x2048 ![] bcast_S_S12x2048x2048 main_cst_4
  let main_v16 : IVec S12x2048x2048 1 := cmpf .olt main_v14 main_v15
  fn_part1 (F := F) main_arg4 main_arg5 main_arg6 main_arg7 main_arg8 main_v13 main_v16
-- ==== Kernel.lean ====
abbrev S4x2048x768 : Shape := ⟨3, ![4, 2048, 768]⟩
abbrev S12x2048x2048 : Shape := ⟨3, ![12, 2048, 2048]⟩
abbrev S768x768 : Shape := ⟨2, ![768, 768]⟩
abbrev S768 : Shape := ⟨1, ![768]⟩
abbrev S_ : Shape := ⟨0, ![]⟩
abbrev S1x768 : Shape := ⟨2, ![1, 768]⟩
abbrev S8192x768 : Shape := ⟨2, ![8192, 768]⟩
abbrev S1024x768 : Shape := ⟨2, ![1024, 768]⟩
abbrev S4x2048x12x64 : Shape := ⟨4, ![4, 2048, 12, 64]⟩
abbrev S4x12x2048x64 : Shape := ⟨4, ![4, 12, 2048, 64]⟩
abbrev S4x1x256x64 : Shape := ⟨4, ![4, 1, 256, 64]⟩
abbrev S4x1x2048x64 : Shape := ⟨4, ![4, 1, 2048, 64]⟩
abbrev S1x256x2048 : Shape := ⟨3, ![1, 256, 2048]⟩
abbrev S4x256x64 : Shape := ⟨3, ![4, 256, 64]⟩
abbrev S4x2048x64 : Shape := ⟨3, ![4, 2048, 64]⟩
abbrev S4x256x2048 : Shape := ⟨3, ![4, 256, 2048]⟩
abbrev S256x2048 : Shape := ⟨2, ![256, 2048]⟩
abbrev S4x256 : Shape := ⟨2, ![4, 256]⟩
abbrev S4x256x1 : Shape := ⟨3, ![4, 256, 1]⟩
abbrev S1x12x512x64 : Shape := ⟨4, ![1, 12, 512, 64]⟩
abbrev S1x512x768 : Shape := ⟨3, ![1, 512, 768]⟩
abbrev S512x768 : Shape := ⟨2, ![512, 768]⟩
abbrev S1x1x512x64 : Shape := ⟨4, ![1, 1, 512, 64]⟩
abbrev S512x64 : Shape := ⟨2, ![512, 64]⟩
abbrev S64x768 : Shape := ⟨2, ![64, 768]⟩

abbrev nBuf : Space → Nat
  | .hbm => 34
  | .vmem => 34
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S12x2048x2048, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768, .f32⟩
  | .hbm, ⟨9, _⟩ => ⟨S_, .f32⟩
  | .hbm, ⟨10, _⟩ => ⟨S1x768, .f32⟩
  | .hbm, ⟨11, _⟩ => ⟨S1x768, .f32⟩
  | .hbm, ⟨12, _⟩ => ⟨S768x768, .f32⟩
  | .hbm, ⟨13, _⟩ => ⟨S768x768, .bf16⟩
  | .hbm, ⟨14, _⟩ => ⟨S768x768, .f32⟩
  | .hbm, ⟨15, _⟩ => ⟨S768x768, .bf16⟩
  | .hbm, ⟨16, _⟩ => ⟨S768x768, .f32⟩
  | .hbm, ⟨17, _⟩ => ⟨S768x768, .bf16⟩
  | .hbm, ⟨18, _⟩ => ⟨S768x768, .f32⟩
  | .hbm, ⟨19, _⟩ => ⟨S768x768, .bf16⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S8192x768, .bf16⟩
  | .hbm, ⟨24, _⟩ => ⟨S8192x768, .bf16⟩
  | .hbm, ⟨25, _⟩ => ⟨S8192x768, .bf16⟩
  | .hbm, ⟨26, _⟩ => ⟨S4x2048x12x64, .bf16⟩
  | .hbm, ⟨27, _⟩ => ⟨S4x12x2048x64, .bf16⟩
  | .hbm, ⟨28, _⟩ => ⟨S4x2048x12x64, .bf16⟩
  | .hbm, ⟨29, _⟩ => ⟨S4x12x2048x64, .bf16⟩
  | .hbm, ⟨30, _⟩ => ⟨S4x2048x12x64, .bf16⟩
  | .hbm, ⟨31, _⟩ => ⟨S4x12x2048x64, .bf16⟩
  | .hbm, ⟨32, _⟩ => ⟨S4x12x2048x64, .bf16⟩
  | .hbm, ⟨33, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | .local _ .vmem, ⟨7, _⟩ => ⟨S1024x768, .f32⟩
  | .local _ .vmem, ⟨8, _⟩ => ⟨S768x768, .bf16⟩
  | .local _ .vmem, ⟨9, _⟩ => ⟨S1x768, .f32⟩
  | .local _ .vmem, ⟨10, _⟩ => ⟨S1024x768, .bf16⟩
  | .local _ .vmem, ⟨11, _⟩ => ⟨S1024x768, .bf16⟩
  | .local _ .vmem, ⟨12, _⟩ => ⟨S1024x768, .f32⟩
  | .local _ .vmem, ⟨13, _⟩ => ⟨S1024x768, .f32⟩
  | .local _ .vmem, ⟨14, _⟩ => ⟨S768x768, .bf16⟩
  | .local _ .vmem, ⟨15, _⟩ => ⟨S1x768, .f32⟩
  | .local _ .vmem, ⟨16, _⟩ => ⟨S1024x768, .bf16⟩
  | .local _ .vmem, ⟨17, _⟩ => ⟨S1024x768, .bf16⟩
  | .local _ .vmem, ⟨18, _⟩ => ⟨S4x1x256x64, .bf16⟩
  | .local _ .vmem, ⟨19, _⟩ => ⟨S4x1x256x64, .bf16⟩
  | .local _ .vmem, ⟨20, _⟩ => ⟨S4x1x2048x64, .bf16⟩
  | .local _ .vmem, ⟨21, _⟩ => ⟨S4x1x2048x64, .bf16⟩
  | .local _ .vmem, ⟨22, _⟩ => ⟨S4x1x2048x64, .bf16⟩
  | .local _ .vmem, ⟨23, _⟩ => ⟨S4x1x2048x64, .bf16⟩
  | .local _ .vmem, ⟨24, _⟩ => ⟨S1x256x2048, .f32⟩
  | .local _ .vmem, ⟨25, _⟩ => ⟨S1x256x2048, .f32⟩
  | .local _ .vmem, ⟨26, _⟩ => ⟨S4x1x256x64, .bf16⟩
  | .local _ .vmem, ⟨27, _⟩ => ⟨S4x1x256x64, .bf16⟩
  | .local _ .vmem, ⟨28, _⟩ => ⟨S1x12x512x64, .bf16⟩
  | .local _ .vmem, ⟨29, _⟩ => ⟨S1x12x512x64, .bf16⟩
  | .local _ .vmem, ⟨30, _⟩ => ⟨S768x768, .bf16⟩
  | .local _ .vmem, ⟨31, _⟩ => ⟨S1x768, .f32⟩
  | .local _ .vmem, ⟨32, _⟩ => ⟨S1x512x768, .f32⟩
  | .local _ .vmem, ⟨33, _⟩ => ⟨S1x512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![12, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage3_0 : Fin 2 → Memref sig .tc .vmem S4x1x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S4x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S4x1x256x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![4, 4], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x12x512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S768x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x512x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  bcast_S_S1x768 : S_.BroadcastsInDim S1x768 (![] : Fin 0 → Fin S1x768.rank)
  shapeCasts_S768_S1x768 : S768.ShapeCasts S1x768
  transposes_S768x768_S768x768_1_0 : S768x768.Transposes [1, 0] S768x768
  bitsLt_bf16_f32 : FTy.bits .bf16 < FTy.bits .f32
  shapeCasts_S4x2048x768_S8192x768 : S4x2048x768.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S8192x768_S4x2048x12x64 : S8192x768.ShapeCasts S4x2048x12x64
  transposes_S4x2048x12x64_S4x12x2048x64_0_2_1_3 : S4x2048x12x64.Transposes [0, 2, 1, 3] S4x12x2048x64
  inb_S4x1x256x64_S4x1x256x64_0_0_0_0 : ∀ a, (![0, 0, 0, 0] : Fin 4 → Nat) a + S4x1x256x64.size a ≤ S4x1x256x64.size a
  h_S4x1x256x64 : 0 < S4x1x256x64.numel
  shapeCasts_S4x1x256x64_S4x256x64 : S4x1x256x64.ShapeCasts S4x256x64
  inb_S4x1x2048x64_S4x1x2048x64_0_0_0_0 : ∀ a, (![0, 0, 0, 0] : Fin 4 → Nat) a + S4x1x2048x64.size a ≤ S4x1x2048x64.size a
  h_S4x1x2048x64 : 0 < S4x1x2048x64.numel
  shapeCasts_S4x1x2048x64_S4x2048x64 : S4x1x2048x64.ShapeCasts S4x2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  broadcasts_S1x256x2048_S4x256x2048 : S1x256x2048.Broadcasts S4x256x2048
  reduces_S4x256x2048_S4x256 : S4x256x2048.Reduces [2] S4x256
  shapeCasts_S4x256_S4x256x1 : S4x256.ShapeCasts S4x256x1
  broadcasts_S4x256x1_S4x256x2048 : S4x256x1.Broadcasts S4x256x2048
  shapeCasts_S4x256x64_S4x1x256x64 : S4x256x64.ShapeCasts S4x1x256x64
  packedbf16_S4x1x256x64_S4x1x256x64_0_0_0_0 : (Rect.unit (s := S4x1x256x64) ![0, 0, 0, 0] S4x1x256x64.size inb_S4x1x256x64_S4x1x256x64_0_0_0_0).PackedRows (EltTy.packing .bf16)
  inb_S1x12x512x64_S1x1x512x64_0_0_0_0 : ∀ a, (![0, 0, 0, 0] : Fin 4 → Nat) a + S1x1x512x64.size a ≤ S1x12x512x64.size a
  h_S1x1x512x64 : 0 < S1x1x512x64.numel
  shapeCasts_S1x1x512x64_S512x64 : S1x1x512x64.ShapeCasts S512x64
  inb_S768x768_S64x768_0_0 : ∀ a, (![0, 0] : Fin 2 → Nat) a + S64x768.size a ≤ S768x768.size a
  h_S64x768 : 0 < S64x768.numel
  shapeCasts_S64x768_S64x768 : S64x768.ShapeCasts S64x768
  inb_S1x12x512x64_S1x1x512x64_0_1_0_0 : ∀ a, (![0, 1, 0, 0] : Fin 4 → Nat) a + S1x1x512x64.size a ≤ S1x12x512x64.size a
  inb_S768x768_S64x768_64_0 : ∀ a, (![64, 0] : Fin 2 → Nat) a + S64x768.size a ≤ S768x768.size a
  inb_S1x12x512x64_S1x1x512x64_0_2_0_0 : ∀ a, (![0, 2, 0, 0] : Fin 4 → Nat) a + S1x1x512x64.size a ≤ S1x12x512x64.size a
  inb_S768x768_S64x768_128_0 : ∀ a, (![128, 0] : Fin 2 → Nat) a + S64x768.size a ≤ S768x768.size a
  inb_S1x12x512x64_S1x1x512x64_0_3_0_0 : ∀ a, (![0, 3, 0, 0] : Fin 4 → Nat) a + S1x1x512x64.size a ≤ S1x12x512x64.size a
  inb_S768x768_S64x768_192_0 : ∀ a, (![192, 0] : Fin 2 → Nat) a + S64x768.size a ≤ S768x768.size a
  inb_S1x12x512x64_S1x1x512x64_0_4_0_0 : ∀ a, (![0, 4, 0, 0] : Fin 4 → Nat) a + S1x1x512x64.size a ≤ S1x12x512x64.size a
  inb_S768x768_S64x768_256_0 : ∀ a, (![256, 0] : Fin 2 → Nat) a + S64x768.size a ≤ S768x768.size a
  inb_S1x12x512x64_S1x1x512x64_0_5_0_0 : ∀ a, (![0, 5, 0, 0] : Fin 4 → Nat) a + S1x1x512x64.size a ≤ S1x12x512x64.size a
  inb_S768x768_S64x768_320_0 : ∀ a, (![320, 0] : Fin 2 → Nat) a + S64x768.size a ≤ S768x768.size a
  inb_S1x12x512x64_S1x1x512x64_0_6_0_0 : ∀ a, (![0, 6, 0, 0] : Fin 4 → Nat) a + S1x1x512x64.size a ≤ S1x12x512x64.size a
  inb_S768x768_S64x768_384_0 : ∀ a, (![384, 0] : Fin 2 → Nat) a + S64x768.size a ≤ S768x768.size a
  inb_S1x12x512x64_S1x1x512x64_0_7_0_0 : ∀ a, (![0, 7, 0, 0] : Fin 4 → Nat) a + S1x1x512x64.size a ≤ S1x12x512x64.size a
  inb_S768x768_S64x768_448_0 : ∀ a, (![448, 0] : Fin 2 → Nat) a + S64x768.size a ≤ S768x768.size a
  inb_S1x12x512x64_S1x1x512x64_0_8_0_0 : ∀ a, (![0, 8, 0, 0] : Fin 4 → Nat) a + S1x1x512x64.size a ≤ S1x12x512x64.size a
  inb_S768x768_S64x768_512_0 : ∀ a, (![512, 0] : Fin 2 → Nat) a + S64x768.size a ≤ S768x768.size a
  inb_S1x12x512x64_S1x1x512x64_0_9_0_0 : ∀ a, (![0, 9, 0, 0] : Fin 4 → Nat) a + S1x1x512x64.size a ≤ S1x12x512x64.size a
  inb_S768x768_S64x768_576_0 : ∀ a, (![576, 0] : Fin 2 → Nat) a + S64x768.size a ≤ S768x768.size a
  inb_S1x12x512x64_S1x1x512x64_0_10_0_0 : ∀ a, (![0, 10, 0, 0] : Fin 4 → Nat) a + S1x1x512x64.size a ≤ S1x12x512x64.size a
  inb_S768x768_S64x768_640_0 : ∀ a, (![640, 0] : Fin 2 → Nat) a + S64x768.size a ≤ S768x768.size a
  inb_S1x12x512x64_S1x1x512x64_0_11_0_0 : ∀ a, (![0, 11, 0, 0] : Fin 4 → Nat) a + S1x1x512x64.size a ≤ S1x12x512x64.size a
  inb_S768x768_S64x768_704_0 : ∀ a, (![704, 0] : Fin 2 → Nat) a + S64x768.size a ≤ S768x768.size a
  broadcasts_S1x768_S512x768 : S1x768.Broadcasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  dot_S1024x768_S768x768_S1024x768_1_0_0_1_n_n_wf : DotDims.WF S1024x768 S768x768 S1024x768 [1] [0] [0] [1] [] []
  dot_S4x256x64_S4x2048x64_S4x256x2048_2_2_1_1_0_0_wf : DotDims.WF S4x256x64 S4x2048x64 S4x256x2048 [2] [2] [1] [1] [0] [0]
  dot_S4x256x2048_S4x2048x64_S4x256x64_2_1_1_2_0_0_wf : DotDims.WF S4x256x2048 S4x2048x64 S4x256x64 [2] [1] [1] [2] [0] [0]
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S8192x768.size a
  hwx0_3 : ∀ i : grid0.Coords, EltTy.bits .bf16 = 32 ∨ (Rect.block (s := S8192x768) S1024x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S8192x768.size a
  hwx1_0 : ∀ i : grid1.Coords, EltTy.bits .f32 = 32 ∨ (Rect.block (s := S8192x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x768.size a ≤ S8192x768.size a
  hwx1_3 : ∀ i : grid1.Coords, EltTy.bits .bf16 = 32 ∨ (Rect.block (s := S8192x768) S1024x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .f32 = 32 ∨ (Rect.block (s := S8192x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S8192x768.size a
  hwx2_3 : ∀ i : grid2.Coords, EltTy.bits .bf16 = 32 ∨ (Rect.block (s := S8192x768) S1024x768.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x1x256x64.size a ≤ S4x12x2048x64.size a
  hwx3_0 : ∀ i : grid3.Coords, EltTy.bits .bf16 = 32 ∨ (Rect.block (s := S4x12x2048x64) S4x1x256x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x1x2048x64.size a ≤ S4x12x2048x64.size a
  hwx3_1 : ∀ i : grid3.Coords, EltTy.bits .bf16 = 32 ∨ (Rect.block (s := S4x12x2048x64) S4x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x1x2048x64.size a ≤ S4x12x2048x64.size a
  hwx3_2 : ∀ i : grid3.Coords, EltTy.bits .bf16 = 32 ∨ (Rect.block (s := S4x12x2048x64) S4x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x2048.size a ≤ S12x2048x2048.size a
  hwx3_3 : ∀ i : grid3.Coords, EltTy.bits .f32 = 32 ∨ (Rect.block (s := S12x2048x2048) S1x256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4x1x256x64.size a ≤ S4x12x2048x64.size a
  hwx3_4 : ∀ i : grid3.Coords, EltTy.bits .bf16 = 32 ∨ (Rect.block (s := S4x12x2048x64) S4x1x256x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x12x512x64.size a ≤ S4x12x2048x64.size a
  hwx4_0 : ∀ i : grid4.Coords, EltTy.bits .bf16 = 32 ∨ (Rect.block (s := S4x12x2048x64) S1x12x512x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x768.size a ≤ S768x768.size a
  hwx4_1 : ∀ i : grid4.Coords, EltTy.bits .bf16 = 32 ∨ (Rect.block (s := S768x768) S768x768.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x768.size a ≤ S1x768.size a
  hwx4_2 : ∀ i : grid4.Coords, EltTy.bits .f32 = 32 ∨ (Rect.block (s := S1x768) S1x768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512x768.size a ≤ S4x2048x768.size a
  hwx4_3 : ∀ i : grid4.Coords, EltTy.bits .f32 = 32 ∨ (Rect.block (s := S4x2048x768) S1x512x768.size (cc4_transform_3 i) (hinb4_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S4x256x64_S4x2048x64_S4x256x2048_2_2_1_1_0_0 : DotDims S4x256x64 S4x2048x64 S4x256x2048 where
  lhsContracting := [2]
  rhsContracting := [2]
  lhsNonContracting := [1]
  rhsNonContracting := [1]
  lhsBatch := [0]
  rhsBatch := [0]
  wf := dot_S4x256x64_S4x2048x64_S4x256x2048_2_2_1_1_0_0_wf
def dot_S4x256x2048_S4x2048x64_S4x256x64_2_1_1_2_0_0 : DotDims S4x256x2048 S4x2048x64 S4x256x64 where
  lhsContracting := [2]
  rhsContracting := [1]
  lhsNonContracting := [1]
  rhsNonContracting := [2]
  lhsBatch := [0]
  rhsBatch := [0]
  wf := dot_S4x256x2048_S4x2048x64_S4x256x64_2_1_1_2_0_0_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_v10) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v17) S4x1x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S4x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S4x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S4x1x256x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S1x12x512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S768x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v1) S1x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1x512x768.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x768 : Shape := ⟨3, ![4, 2048, 768]⟩
abbrev S12x2048x2048 : Shape := ⟨3, ![12, 2048, 2048]⟩
abbrev S768x768 : Shape := ⟨2, ![768, 768]⟩
abbrev S768 : Shape := ⟨1, ![768]⟩
abbrev S4x2048x12x64 : Shape := ⟨4, ![4, 2048, 12, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S1x12x2048x2048 : Shape := ⟨4, ![1, 12, 2048, 2048]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S4x2048x768, .f32⟩
  | .hbm, ⟨3, _⟩ => ⟨S12x2048x2048, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768, .f32⟩
  | .hbm, ⟨9, _⟩ => ⟨S4x2048x768, .f32⟩
  | .hbm, ⟨10, _⟩ => ⟨S4x2048x768, .f32⟩
  | .hbm, ⟨11, _⟩ => ⟨S4x2048x768, .f32⟩
  | .hbm, ⟨12, _⟩ => ⟨S4x2048x12x64, .f32⟩
  | .hbm, ⟨13, _⟩ => ⟨S4x12x2048x64, .f32⟩
  | .hbm, ⟨14, _⟩ => ⟨S_, .f32⟩
  | .hbm, ⟨15, _⟩ => ⟨S4x12x2048x64, .f32⟩
  | .hbm, ⟨16, _⟩ => ⟨S4x12x2048x64, .f32⟩
  | .hbm, ⟨17, _⟩ => ⟨S4x2048x12x64, .f32⟩
  | .hbm, ⟨18, _⟩ => ⟨S4x12x2048x64, .f32⟩
  | .hbm, ⟨19, _⟩ => ⟨S4x2048x12x64, .f32⟩
  | .hbm, ⟨20, _⟩ => ⟨S4x12x2048x64, .f32⟩
  | .hbm, ⟨21, _⟩ => ⟨S4x12x2048x2048, .f32⟩
  | .hbm, ⟨22, _⟩ => ⟨S1x12x2048x2048, .f32⟩
  | .hbm, ⟨23, _⟩ => ⟨S4x12x2048x2048, .f32⟩
  | .hbm, ⟨24, _⟩ => ⟨S4x12x2048x2048, .f32⟩
  | .hbm, ⟨25, _⟩ => ⟨S_, .f32⟩
  | .hbm, ⟨26, _⟩ => ⟨S4x12x2048, .f32⟩
  | .hbm, ⟨27, _⟩ => ⟨S_, .f32⟩
  | .hbm, ⟨28, _⟩ => ⟨S4x12x2048, .f32⟩
  | .hbm, ⟨29, _⟩ => ⟨S4x12x2048, .f32⟩
  | .hbm, ⟨30, _⟩ => ⟨S4x12x2048x1, .f32⟩
  | .hbm, ⟨31, _⟩ => ⟨S4x12x2048x2048, .f32⟩
  | .hbm, ⟨32, _⟩ => ⟨S4x12x2048x2048, .f32⟩
  | .hbm, ⟨33, _⟩ => ⟨S4x12x2048x2048, .f32⟩
  | .hbm, ⟨34, _⟩ => ⟨S_, .f32⟩
  | .hbm, ⟨35, _⟩ => ⟨S4x12x2048, .f32⟩
  | .hbm, ⟨36, _⟩ => ⟨S4x12x2048x1, .f32⟩
  | .hbm, ⟨37, _⟩ => ⟨S4x12x2048x2048, .f32⟩
  | .hbm, ⟨38, _⟩ => ⟨S4x12x2048x2048, .f32⟩
  | .hbm, ⟨39, _⟩ => ⟨S4x12x2048x64, .f32⟩
  | .hbm, ⟨40, _⟩ => ⟨S4x2048x12x64, .f32⟩
  | .hbm, ⟨41, _⟩ => ⟨S4x2048x768, .f32⟩
  | .hbm, ⟨42, _⟩ => ⟨S4x2048x768, .f32⟩
  | .hbm, ⟨43, _⟩ => ⟨S1x1x768, .f32⟩
  | .hbm, ⟨44, _⟩ => ⟨S4x2048x768, .f32⟩
  | .hbm, ⟨45, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x64 : S_.BroadcastsInDim S4x12x2048x64 (![] : Fin 0 → Fin S4x12x2048x64.rank)
  bcast_S12x2048x2048_S1x12x2048x2048_1_2_3 : S12x2048x2048.BroadcastsInDim S1x12x2048x2048 (![1, 2, 3] : Fin 3 → Fin S1x12x2048x2048.rank)
  bcast_S1x12x2048x2048_S4x12x2048x2048_0_1_2_3 : S1x12x2048x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S768x768_S4x2048x768_2_1_01_0_n_n_wf : DotDims.WF S4x2048x768 S768x768 S4x2048x768 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.KernelRun.lean ====
/-
  The whole run of the five-region program with its RESULT named.  Every weakly fair execution terminates without a
  fault; at the end the result buffer holds what the last region (the output projection) leaves in its output array,
  given the buffer contents that region was entered with, and the nine argument arrays are as launched.  The buffer
  contents at each boundary between host operations and regions are the fold `W0 … W7`; the last thread state holds every
  unscoped buffer at `W7`, and reading it against the final memory gives the result buffer along with the arguments.
-/
import proofs.«159598_j32796370272889_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the output projection's final array and the arguments unchanged. -/
theorem run : θ_run defs (onTc (τ := τ) (main (F := F))) ⟨m, fun _ => 0, ρ⟩ (fun r => ∀ c : Dev nD,
      r.2.mem ((c.tc : Thread nD τ).loc main_v23) = (dat4 (V6 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v23 (by decide))).trans (W7_arr m ρ c 3),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.WholeRun

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LinearPayload.lean ====
/-
  One row tile of a linear projection, read at an entry.  The tile's rows x (1024 × 768), the whole weight matrix
  w (768 × 768, already transposed, so that column d of w is row d of the layer's weight) and the bias row b (1 × 768)
  give, at row r and column d, the sum over k of x(r, k) · w(k, d), plus b(0, d): the matrix product accumulates from
  zero, and the two changes of float format around it are the identity on extended reals.  The three projections
  (queries, keys, values) run the same arithmetic, so the statement is made once for each of their payloads.
-/
import proofs.«159598_j32796370272889_2_alg».proof.Proof.Gen.KernelIdeal.Skeleton
import proofs.«159598_j32796370272889_2_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Linear

open Cert.KernelIdeal Cert.KernelIdeal.Gen Idealize.ShloMosaic Idealize.ShloMosaic.ValueIdx

/-- The row tile's product contracts the tile's columns against the weight's rows: a plain matrix product. -/
theorem plainTile : DotPlain.IsPlain dot_S1024x768_S768x768_S1024x768_1_0_0_1_n_n := ⟨rfl, rfl, rfl, rfl, rfl, rfl⟩

/-- Entry (r, d) of the query projection's tile. -/
theorem pay0 (x0 : Vec Ideal S1024x768 .f32) (x1 : Vec Ideal S768x768 .bf16) (x2 : Vec Ideal S1x768 .f32)
    (r : Fin 1024) (d : Fin 768) :
    k0_pay1 (F := Ideal) x0 x1 x2 (ix2 r d)
      = (∑ k : Fin 768, x0 (ix2 r k) * x1 (ix2 k d)) + x2 (ix2 (0 : Fin 1) d) := by
  unfold k0_pay1
  simp only [shapeCast_self]
  simp only [truncf_apply, addf_apply]
  rw [DotPlain.matmul_zero_apply plainTile, broadcastTo_1b_ab_apply]
  rfl

/-- Entry (r, d) of the key projection's tile. -/
theorem pay1 (x0 : Vec Ideal S1024x768 .f32) (x1 : Vec Ideal S768x768 .bf16) (x2 : Vec Ideal S1x768 .f32)
    (r : Fin 1024) (d : Fin 768) :
    k1_pay1 (F := Ideal) x0 x1 x2 (ix2 r d)
      = (∑ k : Fin 768, x0 (ix2 r k) * x1 (ix2 k d)) + x2 (ix2 (0 : Fin 1) d) := by
  unfold k1_pay1
  simp only [shapeCast_self]
  simp only [truncf_apply, addf_apply]
  rw [DotPlain.matmul_zero_apply plainTile, broadcastTo_1b_ab_apply]
  rfl

/-- Entry (r, d) of the value projection's tile. -/
theorem pay2 (x0 : Vec Ideal S1024x768 .f32) (x1 : Vec Ideal S768x768 .bf16) (x2 : Vec Ideal S1x768 .f32)
    (r : Fin 1024) (d : Fin 768) :
    k2_pay1 (F := Ideal) x0 x1 x2 (ix2 r d)
      = (∑ k : Fin 768, x0 (ix2 r k) * x1 (ix2 k d)) + x2 (ix2 (0 : Fin 1) d) := by
  unfold k2_pay1
  simp only [shapeCast_self]
  simp only [truncf_apply, addf_apply]
  rw [DotPlain.matmul_zero_apply plainTile, broadcastTo_1b_ab_apply]
  rfl

/-- THE PROJECTION AS ONE FUNCTION of its three operands: at row i and column d, the sum over k of
    input(i, k) · weight(k, d), plus the bias row at d.  Each row tile computes this on its own rows. -/
def rowsTimes (X : S8192x768.Idx → EReal) (W : S768x768.Idx → EReal) (B : S1x768.Idx → EReal) : S8192x768.Idx → EReal :=
  fun i => (∑ k : Fin 768, X (ix2 (i 0) k) * W (ix2 k (i 1))) + B (ix2 (0 : Fin 1) (i 1))

end Cert.KernelIdeal.Linear

end
-- ==== Proof.Projection0.lean ====
/-
  The query projection, as the array it leaves.  The region walks eight row tiles of 1024 rows; tile t reads rows
  1024·t … 1024·t + 1023 of the flattened input, the whole transposed weight and the whole bias row, and writes the
  same rows of the result.  So entry (i, d) of the result is the sum over k of input(i, k) · weight(k, d) plus
  bias(0, d): every tile computes that one function on its own rows, and the eight tiles cover all 8192 rows.
-/
import proofs.«159598_j32796370272889_2_alg».proof.Proof.Gen.KernelIdeal.Frame
import proofs.«159598_j32796370272889_2_alg».proof.Proof.LinearPayload
import Idealize.ShloMosaic.Lib.Pipeline.Value
import Idealize.ShloMosaic.Lib.ValueIdx

set_option maxRecDepth 16384

noncomputable section

namespace Cert.KernelIdeal.Projection0

open Cert.KernelIdeal Cert.KernelIdeal.Gen Cert.KernelIdeal.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Tile t's input and output blocks sit at block row t; the weight and the bias are the one block there is. -/
theorem blockIndices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block row of the result is some tile's. -/
theorem blockRows : ∀ q : Fin 8, ∃ t : Fin cfg0.N, win0_3.index t = ![q.val, 0] :=
  (by decide +kernel : ∀ q : Fin 8, ∃ t : Fin grid0.N, win0_3.index t = ![q.val, 0])

/-- The input tile read at a local position is the flattened input at the global one. -/
theorem readInput (c : Dev nD) (t : Fin cfg0.N) (y : S1024x768.Idx) (i : S8192x768.Idx)
    (h0 : (i 0).val = win0_0.index t 0 * 1024 + (y 0).val) (h1 : (i 1).val = win0_0.index t 1 * 768 + (y 1).val) :
    iblk0 V c 0 t y = V c main_v10 i := by
  unfold iblk0
  rw [View.read_apply]
  show V c main_v10 (((cfg0.win 0).blk t).view.emb y) = V c main_v10 i
  refine congrArg _ (funext fun a => Fin.ext ?_)
  match a with
  | ⟨0, _⟩ => show win0_0.index t 0 * 1024 + 1 * (y 0).val = (i 0).val; omega
  | ⟨1, _⟩ => show win0_0.index t 1 * 768 + 1 * (y 1).val = (i 1).val; omega

/-- The weight block is the whole weight. -/
theorem readWeight (c : Dev nD) (t : Fin cfg0.N) (y : S768x768.Idx) (i : S768x768.Idx)
    (h0 : (i 0).val = win0_1.index t 0 * 768 + (y 0).val) (h1 : (i 1).val = win0_1.index t 1 * 768 + (y 1).val) :
    iblk0 V c 1 t y = V c main_v3 i := by
  unfold iblk0
  rw [View.read_apply]
  show V c main_v3 (((cfg0.win 1).blk t).view.emb y) = V c main_v3 i
  refine congrArg _ (funext fun a => Fin.ext ?_)
  match a with
  | ⟨0, _⟩ => show win0_1.index t 0 * 768 + 1 * (y 0).val = (i 0).val; omega
  | ⟨1, _⟩ => show win0_1.index t 1 * 768 + 1 * (y 1).val = (i 1).val; omega

/-- The bias block is the whole bias row. -/
theorem readBias (c : Dev nD) (t : Fin cfg0.N) (y : S1x768.Idx) (i : S1x768.Idx)
    (h0 : (i 0).val = win0_2.index t 0 * 1 + (y 0).val) (h1 : (i 1).val = win0_2.index t 1 * 768 + (y 1).val) :
    iblk0 V c 2 t y = V c main_v0 i := by
  unfold iblk0
  rw [View.read_apply]
  show V c main_v0 (((cfg0.win 2).blk t).view.emb y) = V c main_v0 i
  refine congrArg _ (funext fun a => Fin.ext ?_)
  match a with
  | ⟨0, _⟩ => show win0_2.index t 0 * 1 + 1 * (y 0).val = (i 0).val; omega
  | ⟨1, _⟩ => show win0_2.index t 1 * 768 + 1 * (y 1).val = (i 1).val; omega

/-- What tile t writes back is its block of rows of `rowsTimes`. -/
theorem tileWritten (c : Dev nD) (t : Fin cfg0.N) :
    (dat0 (F := Ideal) V c).flushed 3 t
      = ((cfg0.win 3).blk t).view.read (Elt Ideal) (rowsTimes (V c main_v10) (V c main_v3) (V c main_v0)) := by
  show (cfg0.win 3).cut (grid0.coords t) ((dat0 V c).after 3 t) = _
  rw [after0_3]
  unfold out0_3
  rw [View.canon_unit_zero zeroOffsets]
  simp only [View.ld_unit_zero (S := S1024x768) zeroOffsets, View.ld_unit_zero (S := S768x768) zeroOffsets,
    View.ld_unit_zero (S := S1x768) zeroOffsets]
  obtain ⟨e0, e1, e2, e3, e4, e5, e6, e7⟩ := blockIndices t
  funext j
  obtain ⟨r, d, rfl⟩ : ∃ (r : Fin 1024) (d : Fin 768), j = ix2 r d := ⟨j 0, j 1, eq_ix2 j⟩
  show k0_pay1 (iblk0 V c 0 t) (iblk0 V c 1 t) (iblk0 V c 2 t) (ix2 r d)
    = rowsTimes (V c main_v10) (V c main_v3) (V c main_v0) (((cfg0.win 3).blk t).view.emb (ix2 r d))
  refine (pay0 (iblk0 V c 0 t) (iblk0 V c 1 t) (iblk0 V c 2 t) r d).trans ?_
  have hr : r.val < 1024 := r.isLt
  have hd : d.val < 768 := d.isLt
  have g0 : ((((cfg0.win 3).blk t).view.emb (ix2 r d)) 0).val = win0_3.index t 0 * 1024 + 1 * r.val := rfl
  have g1 : ((((cfg0.win 3).blk t).view.emb (ix2 r d)) 1).val = win0_3.index t 1 * 768 + 1 * d.val := rfl
  unfold rowsTimes
  refine congrArg₂ (· + ·) (Finset.sum_congr rfl fun k _ => congrArg₂ (· * ·) ?_ ?_) ?_
  · exact readInput V c t (ix2 r k) _ (by show _ = win0_0.index t 0 * 1024 + r.val; rw [g0]; omega)
      (by show k.val = win0_0.index t 1 * 768 + k.val; omega)
  · exact readWeight V c t (ix2 k d) _ (by show k.val = win0_1.index t 0 * 768 + k.val; omega)
      (by show _ = win0_1.index t 1 * 768 + d.val; rw [g1]; omega)
  · exact readBias V c t (ix2 (0 : Fin 1) d) _ (by show (0 : Nat) = win0_2.index t 0 * 1 + 0; omega)
      (by show _ = win0_2.index t 1 * 768 + d.val; rw [g1]; omega)

/-- A position of the result is in tile t's block exactly when its row and column are in the block's ranges. -/
theorem inBlock (t : Fin cfg0.N) (i : S8192x768.Idx) :
    i ∈ ((cfg0.win 3).blk t).view.set ↔ ∀ a : Fin 2, win0_3.index t a * S1024x768.size a ≤ (i a).val
      ∧ (i a).val < win0_3.index t a * S1024x768.size a + S1024x768.size a := by
  show i ∈ ((View.whole main_v13).slice (win0_3.rect t)).set ↔ _
  rw [View.set_slice_whole, Rect.mem_set_unit]
  exact Iff.rfl

/-- The eight tiles cover the result: row i belongs to tile i / 1024. -/
theorem tilesCover (i : S8192x768.Idx) :
    ∃ t : Fin cfg0.N, (cfg0.win 3).flush t = true ∧ i ∈ ((cfg0.win 3).blk t).view.set := by
  have hi0 : (i 0).val < 8192 := (i 0).isLt
  have hi1 : (i 1).val < 768 := (i 1).isLt
  obtain ⟨t, ht⟩ := blockRows ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [inBlock]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 768 ≤ (i 1).val ∧ (i 1).val < win0_3.index t (1 : Fin 2) * 768 + 768; omega

/-- THE RESULT ARRAY of the query projection, whatever the region finds in its three operands. -/
theorem result (c : Dev nD) :
    (dat0 (F := Ideal) V c).arrAt 3 cfg0.N = rowsTimes (V c main_v10) (V c main_v3) (V c main_v0) :=
  (dat0 (F := Ideal) V c).arrAt_eq_of_cover 3 (rowsTimes (V c main_v10) (V c main_v3) (V c main_v0))
    (fun t _ => tileWritten V c t) tilesCover

end Cert.KernelIdeal.Projection0

end
-- ==== Proof.Projection1.lean ====
/-
  The key projection, as the array it leaves.  The region walks eight row tiles of 1024 rows; tile t reads rows
  1024·t … 1024·t + 1023 of the flattened input, the whole transposed weight and the whole bias row, and writes the
  same rows of the result.  So entry (i, d) of the result is the sum over k of input(i, k) · weight(k, d) plus
  bias(0, d): every tile computes that one function on its own rows, and the eight tiles cover all 8192 rows.
-/
import proofs.«159598_j32796370272889_2_alg».proof.Proof.Gen.KernelIdeal.Frame
import proofs.«159598_j32796370272889_2_alg».proof.Proof.LinearPayload
import Idealize.ShloMosaic.Lib.Pipeline.Value
import Idealize.ShloMosaic.Lib.ValueIdx

set_option maxRecDepth 16384

noncomputable section

namespace Cert.KernelIdeal.Projection1

open Cert.KernelIdeal Cert.KernelIdeal.Gen Cert.KernelIdeal.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Tile t's input and output blocks sit at block row t; the weight and the bias are the one block there is. -/
theorem blockIndices : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every block row of the result is some tile's. -/
theorem blockRows : ∀ q : Fin 8, ∃ t : Fin cfg1.N, win1_3.index t = ![q.val, 0] :=
  (by decide +kernel : ∀ q : Fin 8, ∃ t : Fin grid1.N, win1_3.index t = ![q.val, 0])

/-- The input tile read at a local position is the flattened input at the global one. -/
theorem readInput (c : Dev nD) (t : Fin cfg1.N) (y : S1024x768.Idx) (i : S8192x768.Idx)
    (h0 : (i 0).val = win1_0.index t 0 * 1024 + (y 0).val) (h1 : (i 1).val = win1_0.index t 1 * 768 + (y 1).val) :
    iblk1 V c 0 t y = V c main_v11 i := by
  unfold iblk1
  rw [View.read_apply]
  show V c main_v11 (((cfg1.win 0).blk t).view.emb y) = V c main_v11 i
  refine congrArg _ (funext fun a => Fin.ext ?_)
  match a with
  | ⟨0, _⟩ => show win1_0.index t 0 * 1024 + 1 * (y 0).val = (i 0).val; omega
  | ⟨1, _⟩ => show win1_0.index t 1 * 768 + 1 * (y 1).val = (i 1).val; omega

/-- The weight block is the whole weight. -/
theorem readWeight (c : Dev nD) (t : Fin cfg1.N) (y : S768x768.Idx) (i : S768x768.Idx)
    (h0 : (i 0).val = win1_1.index t 0 * 768 + (y 0).val) (h1 : (i 1).val = win1_1.index t 1 * 768 + (y 1).val) :
    iblk1 V c 1 t y = V c main_v5 i := by
  unfold iblk1
  rw [View.read_apply]
  show V c main_v5 (((cfg1.win 1).blk t).view.emb y) = V c main_v5 i
  refine congrArg _ (funext fun a => Fin.ext ?_)
  match a with
  | ⟨0, _⟩ => show win1_1.index t 0 * 768 + 1 * (y 0).val = (i 0).val; omega
  | ⟨1, _⟩ => show win1_1.index t 1 * 768 + 1 * (y 1).val = (i 1).val; omega

/-- The bias block is the whole bias row. -/
theorem readBias (c : Dev nD) (t : Fin cfg1.N) (y : S1x768.Idx) (i : S1x768.Idx)
    (h0 : (i 0).val = win1_2.index t 0 * 1 + (y 0).val) (h1 : (i 1).val = win1_2.index t 1 * 768 + (y 1).val) :
    iblk1 V c 2 t y = V c main_v0 i := by
  unfold iblk1
  rw [View.read_apply]
  show V c main_v0 (((cfg1.win 2).blk t).view.emb y) = V c main_v0 i
  refine congrArg _ (funext fun a => Fin.ext ?_)
  match a with
  | ⟨0, _⟩ => show win1_2.index t 0 * 1 + 1 * (y 0).val = (i 0).val; omega
  | ⟨1, _⟩ => show win1_2.index t 1 * 768 + 1 * (y 1).val = (i 1).val; omega

/-- What tile t writes back is its block of rows of `rowsTimes`. -/
theorem tileWritten (c : Dev nD) (t : Fin cfg1.N) :
    (dat1 (F := Ideal) V c).flushed 3 t
      = ((cfg1.win 3).blk t).view.read (Elt Ideal) (rowsTimes (V c main_v11) (V c main_v5) (V c main_v0)) := by
  show (cfg1.win 3).cut (grid1.coords t) ((dat1 V c).after 3 t) = _
  rw [after1_3]
  unfold out1_3
  rw [View.canon_unit_zero zeroOffsets]
  simp only [View.ld_unit_zero (S := S1024x768) zeroOffsets, View.ld_unit_zero (S := S768x768) zeroOffsets,
    View.ld_unit_zero (S := S1x768) zeroOffsets]
  obtain ⟨e0, e1, e2, e3, e4, e5, e6, e7⟩ := blockIndices t
  funext j
  obtain ⟨r, d, rfl⟩ : ∃ (r : Fin 1024) (d : Fin 768), j = ix2 r d := ⟨j 0, j 1, eq_ix2 j⟩
  show k1_pay1 (iblk1 V c 0 t) (iblk1 V c 1 t) (iblk1 V c 2 t) (ix2 r d)
    = rowsTimes (V c main_v11) (V c main_v5) (V c main_v0) (((cfg1.win 3).blk t).view.emb (ix2 r d))
  refine (pay1 (iblk1 V c 0 t) (iblk1 V c 1 t) (iblk1 V c 2 t) r d).trans ?_
  have hr : r.val < 1024 := r.isLt
  have hd : d.val < 768 := d.isLt
  have g0 : ((((cfg1.win 3).blk t).view.emb (ix2 r d)) 0).val = win1_3.index t 0 * 1024 + 1 * r.val := rfl
  have g1 : ((((cfg1.win 3).blk t).view.emb (ix2 r d)) 1).val = win1_3.index t 1 * 768 + 1 * d.val := rfl
  unfold rowsTimes
  refine congrArg₂ (· + ·) (Finset.sum_congr rfl fun k _ => congrArg₂ (· * ·) ?_ ?_) ?_
  · exact readInput V c t (ix2 r k) _ (by show _ = win1_0.index t 0 * 1024 + r.val; rw [g0]; omega)
      (by show k.val = win1_0.index t 1 * 768 + k.val; omega)
  · exact readWeight V c t (ix2 k d) _ (by show k.val = win1_1.index t 0 * 768 + k.val; omega)
      (by show _ = win1_1.index t 1 * 768 + d.val; rw [g1]; omega)
  · exact readBias V c t (ix2 (0 : Fin 1) d) _ (by show (0 : Nat) = win1_2.index t 0 * 1 + 0; omega)
      (by show _ = win1_2.index t 1 * 768 + d.val; rw [g1]; omega)

/-- A position of the result is in tile t's block exactly when its row and column are in the block's ranges. -/
theorem inBlock (t : Fin cfg1.N) (i : S8192x768.Idx) :
    i ∈ ((cfg1.win 3).blk t).view.set ↔ ∀ a : Fin 2, win1_3.index t a * S1024x768.size a ≤ (i a).val
      ∧ (i a).val < win1_3.index t a * S1024x768.size a + S1024x768.size a := by
  show i ∈ ((View.whole main_v14).slice (win1_3.rect t)).set ↔ _
  rw [View.set_slice_whole, Rect.mem_set_unit]
  exact Iff.rfl

/-- The eight tiles cover the result: row i belongs to tile i / 1024. -/
theorem tilesCover (i : S8192x768.Idx) :
    ∃ t : Fin cfg1.N, (cfg1.win 3).flush t = true ∧ i ∈ ((cfg1.win 3).blk t).view.set := by
  have hi0 : (i 0).val < 8192 := (i 0).isLt
  have hi1 : (i 1).val < 768 := (i 1).isLt
  obtain ⟨t, ht⟩ := blockRows ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [inBlock]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 768 ≤ (i 1).val ∧ (i 1).val < win1_3.index t (1 : Fin 2) * 768 + 768; omega

/-- THE RESULT ARRAY of the key projection, whatever the region finds in its three operands. -/
theorem result (c : Dev nD) :
    (dat1 (F := Ideal) V c).arrAt 3 cfg1.N = rowsTimes (V c main_v11) (V c main_v5) (V c main_v0) :=
  (dat1 (F := Ideal) V c).arrAt_eq_of_cover 3 (rowsTimes (V c main_v11) (V c main_v5) (V c main_v0))
    (fun t _ => tileWritten V c t) tilesCover

end Cert.KernelIdeal.Projection1

end
-- ==== Proof.Projection2.lean ====
/-
  The value projection, as the array it leaves.  The region walks eight row tiles of 1024 rows; tile t reads rows
  1024·t … 1024·t + 1023 of the flattened input, the whole transposed weight and the whole bias row, and writes the
  same rows of the result.  So entry (i, d) of the result is the sum over k of input(i, k) · weight(k, d) plus
  bias(0, d): every tile computes that one function on its own rows, and the eight tiles cover all 8192 rows.
-/
import proofs.«159598_j32796370272889_2_alg».proof.Proof.Gen.KernelIdeal.Frame
import proofs.«159598_j32796370272889_2_alg».proof.Proof.LinearPayload
import Idealize.ShloMosaic.Lib.Pipeline.Value
import Idealize.ShloMosaic.Lib.ValueIdx

set_option maxRecDepth 16384

noncomputable section

namespace Cert.KernelIdeal.Projection2

open Cert.KernelIdeal Cert.KernelIdeal.Gen Cert.KernelIdeal.Linear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Tile t's input and output blocks sit at block row t; the weight and the bias are the one block there is. -/
theorem blockIndices : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block row of the result is some tile's. -/
theorem blockRows : ∀ q : Fin 8, ∃ t : Fin cfg2.N, win2_3.index t = ![q.val, 0] :=
  (by decide +kernel : ∀ q : Fin 8, ∃ t : Fin grid2.N, win2_3.index t = ![q.val, 0])

/-- The input tile read at a local position is the flattened input at the global one. -/
theorem readInput (c : Dev nD) (t : Fin cfg2.N) (y : S1024x768.Idx) (i : S8192x768.Idx)
    (h0 : (i 0).val = win2_0.index t 0 * 1024 + (y 0).val) (h1 : (i 1).val = win2_0.index t 1 * 768 + (y 1).val) :
    iblk2 V c 0 t y = V c main_v12 i := by
  unfold iblk2
  rw [View.read_apply]
  show V c main_v12 (((cfg2.win 0).blk t).view.emb y) = V c main_v12 i
  refine congrArg _ (funext fun a => Fin.ext ?_)
  match a with
  | ⟨0, _⟩ => show win2_0.index t 0 * 1024 + 1 * (y 0).val = (i 0).val; omega
  | ⟨1, _⟩ => show win2_0.index t 1 * 768 + 1 * (y 1).val = (i 1).val; omega

/-- The weight block is the whole weight. -/
theorem readWeight (c : Dev nD) (t : Fin cfg2.N) (y : S768x768.Idx) (i : S768x768.Idx)
    (h0 : (i 0).val = win2_1.index t 0 * 768 + (y 0).val) (h1 : (i 1).val = win2_1.index t 1 * 768 + (y 1).val) :
    iblk2 V c 1 t y = V c main_v7 i := by
  unfold iblk2
  rw [View.read_apply]
  show V c main_v7 (((cfg2.win 1).blk t).view.emb y) = V c main_v7 i
  refine congrArg _ (funext fun a => Fin.ext ?_)
  match a with
  | ⟨0, _⟩ => show win2_1.index t 0 * 768 + 1 * (y 0).val = (i 0).val; omega
  | ⟨1, _⟩ => show win2_1.index t 1 * 768 + 1 * (y 1).val = (i 1).val; omega

/-- The bias block is the whole bias row. -/
theorem readBias (c : Dev nD) (t : Fin cfg2.N) (y : S1x768.Idx) (i : S1x768.Idx)
    (h0 : (i 0).val = win2_2.index t 0 * 1 + (y 0).val) (h1 : (i 1).val = win2_2.index t 1 * 768 + (y 1).val) :
    iblk2 V c 2 t y = V c main_v0 i := by
  unfold iblk2
  rw [View.read_apply]
  show V c main_v0 (((cfg2.win 2).blk t).view.emb y) = V c main_v0 i
  refine congrArg _ (funext fun a => Fin.ext ?_)
  match a with
  | ⟨0, _⟩ => show win2_2.index t 0 * 1 + 1 * (y 0).val = (i 0).val; omega
  | ⟨1, _⟩ => show win2_2.index t 1 * 768 + 1 * (y 1).val = (i 1).val; omega

/-- What tile t writes back is its block of rows of `rowsTimes`. -/
theorem tileWritten (c : Dev nD) (t : Fin cfg2.N) :
    (dat2 (F := Ideal) V c).flushed 3 t
      = ((cfg2.win 3).blk t).view.read (Elt Ideal) (rowsTimes (V c main_v12) (V c main_v7) (V c main_v0)) := by
  show (cfg2.win 3).cut (grid2.coords t) ((dat2 V c).after 3 t) = _
  rw [after2_3]
  unfold out2_3
  rw [View.canon_unit_zero zeroOffsets]
  simp only [View.ld_unit_zero (S := S1024x768) zeroOffsets, View.ld_unit_zero (S := S768x768) zeroOffsets,
    View.ld_unit_zero (S := S1x768) zeroOffsets]
  obtain ⟨e0, e1, e2, e3, e4, e5, e6, e7⟩ := blockIndices t
  funext j
  obtain ⟨r, d, rfl⟩ : ∃ (r : Fin 1024) (d : Fin 768), j = ix2 r d := ⟨j 0, j 1, eq_ix2 j⟩
  show k2_pay1 (iblk2 V c 0 t) (iblk2 V c 1 t) (iblk2 V c 2 t) (ix2 r d)
    = rowsTimes (V c main_v12) (V c main_v7) (V c main_v0) (((cfg2.win 3).blk t).view.emb (ix2 r d))
  refine (pay2 (iblk2 V c 0 t) (iblk2 V c 1 t) (iblk2 V c 2 t) r d).trans ?_
  have hr : r.val < 1024 := r.isLt
  have hd : d.val < 768 := d.isLt
  have g0 : ((((cfg2.win 3).blk t).view.emb (ix2 r d)) 0).val = win2_3.index t 0 * 1024 + 1 * r.val := rfl
  have g1 : ((((cfg2.win 3).blk t).view.emb (ix2 r d)) 1).val = win2_3.index t 1 * 768 + 1 * d.val := rfl
  unfold rowsTimes
  refine congrArg₂ (· + ·) (Finset.sum_congr rfl fun k _ => congrArg₂ (· * ·) ?_ ?_) ?_
  · exact readInput V c t (ix2 r k) _ (by show _ = win2_0.index t 0 * 1024 + r.val; rw [g0]; omega)
      (by show k.val = win2_0.index t 1 * 768 + k.val; omega)
  · exact readWeight V c t (ix2 k d) _ (by show k.val = win2_1.index t 0 * 768 + k.val; omega)
      (by show _ = win2_1.index t 1 * 768 + d.val; rw [g1]; omega)
  · exact readBias V c t (ix2 (0 : Fin 1) d) _ (by show (0 : Nat) = win2_2.index t 0 * 1 + 0; omega)
      (by show _ = win2_2.index t 1 * 768 + d.val; rw [g1]; omega)

/-- A position of the result is in tile t's block exactly when its row and column are in the block's ranges. -/
theorem inBlock (t : Fin cfg2.N) (i : S8192x768.Idx) :
    i ∈ ((cfg2.win 3).blk t).view.set ↔ ∀ a : Fin 2, win2_3.index t a * S1024x768.size a ≤ (i a).val
      ∧ (i a).val < win2_3.index t a * S1024x768.size a + S1024x768.size a := by
  show i ∈ ((View.whole main_v15).slice (win2_3.rect t)).set ↔ _
  rw [View.set_slice_whole, Rect.mem_set_unit]
  exact Iff.rfl

/-- The eight tiles cover the result: row i belongs to tile i / 1024. -/
theorem tilesCover (i : S8192x768.Idx) :
    ∃ t : Fin cfg2.N, (cfg2.win 3).flush t = true ∧ i ∈ ((cfg2.win 3).blk t).view.set := by
  have hi0 : (i 0).val < 8192 := (i 0).isLt
  have hi1 : (i 1).val < 768 := (i 1).isLt
  obtain ⟨t, ht⟩ := blockRows ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [inBlock]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 768 ≤ (i 1).val ∧ (i 1).val < win2_3.index t (1 : Fin 2) * 768 + 768; omega

/-- THE RESULT ARRAY of the value projection, whatever the region finds in its three operands. -/
theorem result (c : Dev nD) :
    (dat2 (F := Ideal) V c).arrAt 3 cfg2.N = rowsTimes (V c main_v12) (V c main_v7) (V c main_v0) :=
  (dat2 (F := Ideal) V c).arrAt_eq_of_cover 3 (rowsTimes (V c main_v12) (V c main_v7) (V c main_v0))
    (fun t _ => tileWritten V c t) tilesCover

end Cert.KernelIdeal.Projection2

end
-- ==== Proof.Boundaries.lean ====
/-
  What each region finds in its operands, and what the three projections leave.

  Before the first region the host flattens the three inputs to 8192 rows, transposes each weight matrix (the
  change of float format after it is the identity on extended reals), makes a zero bias row and recasts the output
  bias as a row.  No region writes any of these, so each later region finds them as the host left them.  Each
  projection region writes only its own output; between the projections and the attention the host recasts each
  output to batch × position × head × coordinate and swaps the position and head axes.
-/
import proofs.«159598_j32796370272889_2_alg».proof.Proof.Gen.KernelIdeal.Frame
import proofs.«159598_j32796370272889_2_alg».proof.Proof.Projection0
import proofs.«159598_j32796370272889_2_alg».proof.Proof.Projection1
import proofs.«159598_j32796370272889_2_alg».proof.Proof.Projection2
import Idealize.ShloMosaic.Lib.StableHlo.Run
import Idealize.ShloMosaic.PureOps.Ideal

set_option maxRecDepth 16384

noncomputable section

namespace Cert.KernelIdeal.Boundaries

open Cert.KernelIdeal Cert.KernelIdeal.Gen Cert.KernelIdeal.Linear
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## As the first region is entered -/

/-- The flattened query input as region 0 is entered. -/
theorem v10 : (V1 (F := Ideal) m ρ c main_v10 : S8192x768.Idx → EReal)
    = shapeCast S8192x768 (m ((c : Thread nD τ).loc main_arg0)) shapeCasts_S4x2048x768_S8192x768 := by
  dsimp only [V1, W1, hostOps0]; after_results; rfl

/-- The flattened key input as region 0 is entered. -/
theorem v11 : (V1 (F := Ideal) m ρ c main_v11 : S8192x768.Idx → EReal)
    = shapeCast S8192x768 (m ((c : Thread nD τ).loc main_arg1)) shapeCasts_S4x2048x768_S8192x768 := by
  dsimp only [V1, W1, hostOps0]; after_results; rfl

/-- The flattened value input as region 0 is entered. -/
theorem v12 : (V1 (F := Ideal) m ρ c main_v12 : S8192x768.Idx → EReal)
    = shapeCast S8192x768 (m ((c : Thread nD τ).loc main_arg2)) shapeCasts_S4x2048x768_S8192x768 := by
  dsimp only [V1, W1, hostOps0]; after_results; rfl

/-- A transposed weight as region 0 is entered. -/
theorem v3 : (V1 (F := Ideal) m ρ c main_v3 : S768x768.Idx → EReal)
    = truncf (F := Ideal) .bf16 (transpose S768x768 [1, 0] (m ((c : Thread nD τ).loc main_arg4)) transposes_S768x768_S768x768_1_0) bitsLt_bf16_f32 := by
  dsimp only [V1, W1, hostOps0]; after_results

/-- A transposed weight as region 0 is entered. -/
theorem v5 : (V1 (F := Ideal) m ρ c main_v5 : S768x768.Idx → EReal)
    = truncf (F := Ideal) .bf16 (transpose S768x768 [1, 0] (m ((c : Thread nD τ).loc main_arg5)) transposes_S768x768_S768x768_1_0) bitsLt_bf16_f32 := by
  dsimp only [V1, W1, hostOps0]; after_results

/-- A transposed weight as region 0 is entered. -/
theorem v7 : (V1 (F := Ideal) m ρ c main_v7 : S768x768.Idx → EReal)
    = truncf (F := Ideal) .bf16 (transpose S768x768 [1, 0] (m ((c : Thread nD τ).loc main_arg6)) transposes_S768x768_S768x768_1_0) bitsLt_bf16_f32 := by
  dsimp only [V1, W1, hostOps0]; after_results

/-- A transposed weight as region 0 is entered. -/
theorem v9 : (V1 (F := Ideal) m ρ c main_v9 : S768x768.Idx → EReal)
    = truncf (F := Ideal) .bf16 (transpose S768x768 [1, 0] (m ((c : Thread nD τ).loc main_arg7)) transposes_S768x768_S768x768_1_0) bitsLt_bf16_f32 := by
  dsimp only [V1, W1, hostOps0]; after_results

/-- The zero bias row of the three projections. -/
theorem v0 : (V1 (F := Ideal) m ρ c main_v0 : S1x768.Idx → EReal)
    = broadcastInDim S1x768 ![] bcast_S_S1x768 (constant (F := Ideal) S_ .f32 0x00000000#32) := by
  dsimp only [V1, W1, hostOps0]; after_results

/-- The output bias as a row. -/
theorem v1 : (V1 (F := Ideal) m ρ c main_v1 : S1x768.Idx → EReal)
    = shapeCast S1x768 (m ((c : Thread nD τ).loc main_arg8)) shapeCasts_S768_S1x768 := by
  dsimp only [V1, W1, hostOps0]; after_results; rfl

/-! ## The zero bias row is an input of each projection: read, never written back -/

theorem zeroRow2 : V2 (F := Ideal) m ρ c main_v0 = V1 m ρ c main_v0 :=
  (W2_arr m ρ c 2).trans (((dat0 (V1 m ρ) c).arrAt_in 2 rfl _).trans (A_eq0 (V1 m ρ) c 2))

theorem zeroRow3 : V3 (F := Ideal) m ρ c main_v0 = V1 m ρ c main_v0 :=
  ((W3_arr m ρ c 2).trans (((dat1 (V2 m ρ) c).arrAt_in 2 rfl _).trans (A_eq1 (V2 m ρ) c 2))).trans (zeroRow2 m ρ c)

/-! ## What the projections leave -/

/-- The query projection's output after the three projection regions. -/
theorem out13 : (W4 (F := Ideal) m ρ c (Proc.devRef .tc main_v13) : S8192x768.Idx → EReal)
    = rowsTimes (V1 m ρ c main_v10) (V1 m ρ c main_v3) (V1 m ρ c main_v0) :=
  calc W4 m ρ c (Proc.devRef .tc main_v13)
    _ = W3 m ρ c (Proc.devRef .tc main_v13) := W4_of_ne m ρ c main_v13 (by decide)
    _ = W2 m ρ c (Proc.devRef .tc main_v13) := W3_of_ne m ρ c main_v13 (by decide)
    _ = (dat0 (V1 m ρ) c).arrAt 3 cfg0.N := W2_arr m ρ c 3
    _ = _ := Projection0.result (V1 m ρ) c

/-- The key projection's output after the three projection regions; its operands were left alone by region 0. -/
theorem out14 : (W4 (F := Ideal) m ρ c (Proc.devRef .tc main_v14) : S8192x768.Idx → EReal)
    = rowsTimes (V1 m ρ c main_v11) (V1 m ρ c main_v5) (V1 m ρ c main_v0) :=
  calc W4 m ρ c (Proc.devRef .tc main_v14)
    _ = W3 m ρ c (Proc.devRef .tc main_v14) := W4_of_ne m ρ c main_v14 (by decide)
    _ = (dat1 (V2 m ρ) c).arrAt 3 cfg1.N := W3_arr m ρ c 3
    _ = rowsTimes (V2 m ρ c main_v11) (V2 m ρ c main_v5) (V2 m ρ c main_v0) := Projection1.result (V2 m ρ) c
    _ = _ := by
      rw [show V2 m ρ c main_v11 = V1 m ρ c main_v11 from W2_of_ne m ρ c main_v11 (by decide),
        show V2 m ρ c main_v5 = V1 m ρ c main_v5 from W2_of_ne m ρ c main_v5 (by decide),
        zeroRow2 m ρ c]

/-- The value projection's output; its operands were left alone by regions 0 and 1. -/
theorem out15 : (W4 (F := Ideal) m ρ c (Proc.devRef .tc main_v15) : S8192x768.Idx → EReal)
    = rowsTimes (V1 m ρ c main_v12) (V1 m ρ c main_v7) (V1 m ρ c main_v0) :=
  calc W4 m ρ c (Proc.devRef .tc main_v15)
    _ = (dat2 (V3 m ρ) c).arrAt 3 cfg2.N := W4_arr m ρ c 3
    _ = rowsTimes (V3 m ρ c main_v12) (V3 m ρ c main_v7) (V3 m ρ c main_v0) := Projection2.result (V3 m ρ) c
    _ = _ := by
      rw [show V3 m ρ c main_v12 = V1 m ρ c main_v12 from
          (W3_of_ne m ρ c main_v12 (by decide)).trans (W2_of_ne m ρ c main_v12 (by decide)),
        show V3 m ρ c main_v7 = V1 m ρ c main_v7 from
          (W3_of_ne m ρ c main_v7 (by decide)).trans (W2_of_ne m ρ c main_v7 (by decide)),
        zeroRow3 m ρ c]

/-! ## As the attention region is entered -/

/-- Queries per head: the projection's output recast and its position and head axes swapped. -/
theorem v17 : (V5 (F := Ideal) m ρ c main_v17 : S4x12x2048x64.Idx → EReal)
    = transpose S4x12x2048x64 [0, 2, 1, 3]
        (shapeCast S4x2048x12x64 (W4 (F := Ideal) m ρ c (Proc.devRef .tc main_v13) : S8192x768.Idx → EReal) shapeCasts_S8192x768_S4x2048x12x64)
        transposes_S4x2048x12x64_S4x12x2048x64_0_2_1_3 := by
  dsimp only [V5, W5, hostOps3]; after_results; rfl

/-- Keys per head. -/
theorem v19 : (V5 (F := Ideal) m ρ c main_v19 : S4x12x2048x64.Idx → EReal)
    = transpose S4x12x2048x64 [0, 2, 1, 3]
        (shapeCast S4x2048x12x64 (W4 (F := Ideal) m ρ c (Proc.devRef .tc main_v14) : S8192x768.Idx → EReal) shapeCasts_S8192x768_S4x2048x12x64)
        transposes_S4x2048x12x64_S4x12x2048x64_0_2_1_3 := by
  dsimp only [V5, W5, hostOps3]; after_results; rfl

/-- Values per head. -/
theorem v21 : (V5 (F := Ideal) m ρ c main_v21 : S4x12x2048x64.Idx → EReal)
    = transpose S4x12x2048x64 [0, 2, 1, 3]
        (shapeCast S4x2048x12x64 (W4 (F := Ideal) m ρ c (Proc.devRef .tc main_v15) : S8192x768.Idx → EReal) shapeCasts_S8192x768_S4x2048x12x64)
        transposes_S4x2048x12x64_S4x12x2048x64_0_2_1_3 := by
  dsimp only [V5, W5, hostOps3]; after_results; rfl

/-- The relative-position bias is as launched. -/
theorem bias : V5 (F := Ideal) m ρ c main_arg3 = (m ((c : Thread nD τ).loc main_arg3)) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := rfl

/-! ## As the output projection is entered -/

/-- The transposed output weight is as the host left it before the first region. -/
theorem weightOut : V6 (F := Ideal) m ρ c main_v9 = V1 m ρ c main_v9 :=
  calc W6 m ρ c (Proc.devRef .tc main_v9)
    _ = W5 m ρ c (Proc.devRef .tc main_v9) := W6_of_ne m ρ c main_v9 (by decide)
    _ = W4 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v9) := W4_of_ne m ρ c main_v9 (by decide)
    _ = W2 m ρ c (Proc.devRef .tc main_v9) := W3_of_ne m ρ c main_v9 (by decide)
    _ = W1 m ρ c (Proc.devRef .tc main_v9) := W2_of_ne m ρ c main_v9 (by decide)

/-- The output bias row likewise. -/
theorem biasOut : V6 (F := Ideal) m ρ c main_v1 = V1 m ρ c main_v1 :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := W3_of_ne m ρ c main_v1 (by decide)
    _ = W1 m ρ c (Proc.devRef .tc main_v1) := W2_of_ne m ρ c main_v1 (by decide)

end Cert.KernelIdeal.Boundaries

end
-- ==== Proof.AttentionSpec.lean ====
/-
  The mathematics of one attention layer on extended reals, stated once for both programs.

  For a batch entry b, a head h and a query position n, the score against key position m is the inner product of the
  query row and the key row over the 64 coordinates of the head, scaled by 1/8, plus the relative-position bias at
  (h, n, m).  The softmax of a row S of 2048 scores gives entry m the weight exp(S m − M) / Σₖ exp(S k − M), where M is
  the largest score of the row (the maximum taken from −∞).  The head's output at coordinate e is the weights' average
  of the value rows: Σₘ weight(m) · value(m, e).  The output projection then sums, over the twelve heads and the 64
  coordinates of each, output(b, h, n, e) · weight(64·h + e, c), and adds the bias row.

  Nothing here depends on a program: the arrays are functions on index tuples of the literal shapes.
-/
import Idealize.ShloMosaic.PureOps.Ideal
import Idealize.ShloMosaic.Lib.ValueIdx

noncomputable section

open scoped BigOperators

namespace Cert.Attention

open Idealize.ShloMosaic Idealize.ShloMosaic.ValueIdx

/-- Per-head layout: batch × head × position × coordinate. -/
abbrev Heads : Shape := ⟨4, ![4, 12, 2048, 64]⟩
/-- Relative-position bias: head × query position × key position. -/
abbrev Bias : Shape := ⟨3, ![12, 2048, 2048]⟩
/-- Token layout: batch × position × channel. -/
abbrev Tokens : Shape := ⟨3, ![4, 2048, 768]⟩
/-- A square weight matrix. -/
abbrev Weight : Shape := ⟨2, ![768, 768]⟩
/-- A bias row. -/
abbrev Row : Shape := ⟨2, ![1, 768]⟩

/-- The largest entry of a row, the maximum taken from −∞. -/
def rowMax {n : Nat} (S : Fin n → EReal) : EReal :=
  (Finset.univ : Finset (Fin n)).fold max (Ideal.ofBits .f32 0xFF800000#32) S

/-- The softmax weight of entry m of the row S. -/
def softRow {n : Nat} (S : Fin n → EReal) (m : Fin n) : EReal :=
  Ideal.div (Ideal.exp (S m - rowMax S)) (∑ k : Fin n, Ideal.exp (S k - rowMax S))

/-- The softmax-weighted sum of X along the row S. -/
def mix {n : Nat} (S : Fin n → EReal) (X : Fin n → EReal) : EReal := ∑ m : Fin n, softRow S m * X m

/-- The score of query position n against key position m in head h of batch entry b: the inner product over the
    head's 64 coordinates, scaled by 1/8 AFTER the sum, plus the bias. -/
def score (Q K : Heads.Idx → EReal) (Bi : Bias.Idx → EReal) (b : Fin 4) (h : Fin 12) (n m : Fin 2048) : EReal :=
  (∑ e : Fin 64, Q (ix4 b h n e) * K (ix4 b h m e)) * Ideal.ofBits .f32 0x3E000000#32 + Bi (ix3 h n m)

/-- One head's output at (b, h, n, e). -/
def attendAt (Q K Vv : Heads.Idx → EReal) (Bi : Bias.Idx → EReal) (b : Fin 4) (h : Fin 12) (n : Fin 2048) (e : Fin 64) : EReal :=
  mix (fun m => score Q K Bi b h n m) (fun m => Vv (ix4 b h m e))

/-- THE ATTENTION OUTPUT as one array in the per-head layout. -/
def attend (Q K Vv : Heads.Idx → EReal) (Bi : Bias.Idx → EReal) : Heads.Idx → EReal := fun i =>
  attendAt Q K Vv Bi ⟨(i 0).val, (i 0).isLt⟩ ⟨(i 1).val, (i 1).isLt⟩ ⟨(i 2).val, (i 2).isLt⟩ ⟨(i 3).val, (i 3).isLt⟩

/-- Channel 64·h + e of the 768: coordinate e of head h. -/
def chan (h : Fin 12) (e : Fin 64) : Fin 768 := ⟨h.val * 64 + e.val, by have := h.isLt; have := e.isLt; omega⟩

/-- The output projection at (b, n, c): over heads and coordinates, then the bias row. -/
def headsOutAt (O : Heads.Idx → EReal) (W : Weight.Idx → EReal) (B : Row.Idx → EReal) (b : Fin 4) (n : Fin 2048) (c : Fin 768) : EReal :=
  (∑ h : Fin 12, ∑ e : Fin 64, O (ix4 b h n e) * W (ix2 (chan h e) c)) + B (ix2 (0 : Fin 1) c)

/-- THE OUTPUT PROJECTION as one array in the token layout. -/
def headsOut (O : Heads.Idx → EReal) (W : Weight.Idx → EReal) (B : Row.Idx → EReal) : Tokens.Idx → EReal := fun i =>
  headsOutAt O W B ⟨(i 0).val, (i 0).isLt⟩ ⟨(i 1).val, (i 1).isLt⟩ ⟨(i 2).val, (i 2).isLt⟩

end Cert.Attention

end
-- ==== Proof.ProjectionsAgree.lean ====
/-
  The three linear projections agree.  The layer is y(b, n, d) = Σₖ x(b, n, k) · w(d, k): rows of the input against rows
  of the weight.  One program flattens the input to 8192 rows, transposes the weight, multiplies rows by columns and
  adds a zero bias row; the other contracts the last axes directly.  Row r of the flattened input is token
  (r / 2048, r % 2048), column d of the transposed weight is row d of the weight, and adding zero changes nothing, so
  the flat product is the layer's output flattened.  Recasting a flattened array to batch × position × head ×
  coordinate is recasting the array itself, since a recast only follows row-major positions.
-/
import proofs.«159598_j32796370272889_2_alg».proof.Proof.LinearPayload
import proofs.«159598_j32796370272889_2_alg».proof.Proof.AttentionSpec
import proofs.«159598_j32796370272889_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx
open Cert.KernelIdeal.Linear (rowsTimes)
open Cert.Attention (Tokens Weight Row Heads)

/-- Two recasts in a row are one: each only follows row-major positions. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun j => congrArg v (Shape.reshapeEquiv_reshapeEquiv h h' j)

/-- The flattened token layout: 8192 rows of 768 channels. -/
abbrev Flat : Shape := ⟨2, ![8192, 768]⟩

/-- THE LAYER: rows of the input against rows of the weight. -/
def rowsDot (x : Tokens.Idx → EReal) (w : Weight.Idx → EReal) : Tokens.Idx → EReal :=
  fun i => ∑ k : Fin 768, x (ix3 (i 0) (i 1) k) * w (ix2 (i 2) k)

/-- A flattened array at row r is the array at token (r / 2048, r % 2048). -/
theorem flat_apply (y : Tokens.Idx → EReal) (hx : Tokens.ShapeCasts Flat) (r : Fin 8192) (k : Fin 768) :
    shapeCast Flat y hx (ix2 r k)
      = y (ix3 (⟨r.val / 2048, by have := r.isLt; omega⟩ : Fin 4) (⟨r.val % 2048, Nat.mod_lt _ (by decide)⟩ : Fin 2048) k) := by
  refine shapeCast_apply y hx _ _ ?_
  rw [Shape.rowMajor_val_three, Shape.rowMajor_val_two]
  show ((r.val / 2048) * 2048 + r.val % 2048) * 768 + k.val = r.val * 768 + k.val
  have := r.isLt
  omega

/-- The flat product of the flattened input with the transposed weight, plus a zero row, is the layer flattened. -/
theorem flat_proj (x : Tokens.Idx → EReal) (w : Weight.Idx → EReal) (hx : Tokens.ShapeCasts Flat)
    (ht : Weight.Transposes [1, 0] Weight) (hb : (⟨0, ![]⟩ : Shape).BroadcastsInDim Row (![] : Fin 0 → Fin Row.rank))
    (hlt : FTy.bf16.bits < FTy.f32.bits) :
    rowsTimes (shapeCast Flat x hx) (truncf (F := Ideal) .bf16 (transpose Weight [1, 0] w ht) hlt)
        (broadcastInDim Row ![] hb (constant (F := Ideal) ⟨0, ![]⟩ .f32 0x00000000#32))
      = shapeCast Flat (rowsDot x w) hx := by
  funext i
  obtain ⟨r, d, rfl⟩ : ∃ (r : Fin 8192) (d : Fin 768), i = ix2 r d := ⟨i 0, i 1, eq_ix2 i⟩
  rw [flat_apply (rowsDot x w) hx r d]
  unfold rowsTimes rowsDot
  show (∑ k : Fin 768, shapeCast Flat x hx (ix2 r k) * transpose Weight [1, 0] w ht (ix2 k d))
      + Ideal.ofBits .f32 0x00000000#32 = _
  rw [Ideal.ofBits_zero_f32, add_zero]
  refine Finset.sum_congr rfl fun k _ => ?_
  rw [flat_apply x hx r k, transpose_ix2_apply]

/-- The reference's query projection is that function. -/
theorem ref_v0 (x : Tokens.Idx → EReal) (w : Weight.Idx → EReal) :
    Cert.ReferenceIdeal.Read.val_main_v0 (F := Ideal) x w = rowsDot x w := by
  funext i
  rw [Cert.ReferenceIdeal.Read.val_main_v0_apply]
  unfold rowsDot
  refine Finset.sum_congr rfl fun k _ => ?_
  have e1 : Cert.ReferenceIdeal.Read.lidx_main_v0 i k = ix3 (i 0) (i 1) k :=
    funext fun a => Fin.ext (by match a with | ⟨0, _⟩ => rfl | ⟨1, _⟩ => rfl | ⟨2, _⟩ => rfl)
  have e2 : Cert.ReferenceIdeal.Read.ridx_main_v0 i k = ix2 (i 2) k :=
    funext fun a => Fin.ext (by match a with | ⟨0, _⟩ => rfl | ⟨1, _⟩ => rfl)
  rw [e1, e2]
  rfl

/-- The reference's key projection is that function. -/
theorem ref_v1 (x : Tokens.Idx → EReal) (w : Weight.Idx → EReal) :
    Cert.ReferenceIdeal.Read.val_main_v1 (F := Ideal) x w = rowsDot x w := by
  funext i
  rw [Cert.ReferenceIdeal.Read.val_main_v1_apply]
  unfold rowsDot
  refine Finset.sum_congr rfl fun k _ => ?_
  have e1 : Cert.ReferenceIdeal.Read.lidx_main_v1 i k = ix3 (i 0) (i 1) k :=
    funext fun a => Fin.ext (by match a with | ⟨0, _⟩ => rfl | ⟨1, _⟩ => rfl | ⟨2, _⟩ => rfl)
  have e2 : Cert.ReferenceIdeal.Read.ridx_main_v1 i k = ix2 (i 2) k :=
    funext fun a => Fin.ext (by match a with | ⟨0, _⟩ => rfl | ⟨1, _⟩ => rfl)
  rw [e1, e2]
  rfl

/-- The reference's value projection is that function. -/
theorem ref_v2 (x : Tokens.Idx → EReal) (w : Weight.Idx → EReal) :
    Cert.ReferenceIdeal.Read.val_main_v2 (F := Ideal) x w = rowsDot x w := by
  funext i
  rw [Cert.ReferenceIdeal.Read.val_main_v2_apply]
  unfold rowsDot
  refine Finset.sum_congr rfl fun k _ => ?_
  have e1 : Cert.ReferenceIdeal.Read.lidx_main_v2 i k = ix3 (i 0) (i 1) k :=
    funext fun a => Fin.ext (by match a with | ⟨0, _⟩ => rfl | ⟨1, _⟩ => rfl | ⟨2, _⟩ => rfl)
  have e2 : Cert.ReferenceIdeal.Read.ridx_main_v2 i k = ix2 (i 2) k :=
    funext fun a => Fin.ext (by match a with | ⟨0, _⟩ => rfl | ⟨1, _⟩ => rfl)
  rw [e1, e2]
  rfl

end Cert.Bridge

end
-- ==== Proof.OutputAgree.lean ====
/-
  The output projection agrees.  One program sums, for each of the twelve heads, the head's 64 output coordinates
  against rows 64·h … 64·h + 63 of the transposed weight, and adds the bias recast as a row.  The other swaps the
  attention output's head and position axes, recasts it to 768 channels per token (channel k is coordinate k % 64 of
  head k / 64), contracts the channels against the rows of the weight, and adds the bias broadcast over tokens.  A sum
  over the 768 channels is the sum over heads of the sum over the head's coordinates, channel 64·h + e standing for
  (h, e); the rest is reading each layout operation at an index.
-/
import proofs.«159598_j32796370272889_2_alg».proof.Proof.AttentionSpec
import proofs.«159598_j32796370272889_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx
open Cert.Attention

/-- Batch × position × head × coordinate: the per-head layout with the position and head axes swapped. -/
abbrev HeadsT : Shape := ⟨4, ![4, 2048, 12, 64]⟩
/-- A bias vector. -/
abbrev Vec768 : Shape := ⟨1, ![768]⟩

/-- A sum over the 768 channels is the sum over the twelve heads of the sum over the head's 64 coordinates. -/
theorem sum_chan (f : Fin 768 → EReal) : ∑ k : Fin 768, f k = ∑ h : Fin 12, ∑ e : Fin 64, f (chan h e) := by
  refine ((Equiv.sum_comp (finProdFinEquiv : Fin 12 × Fin 64 ≃ Fin (12 * 64)) f).symm.trans ?_)
  rw [Fintype.sum_prod_type]
  refine Finset.sum_congr rfl fun h _ => Finset.sum_congr rfl fun e _ => congrArg f (Fin.ext ?_)
  show e.val + 64 * h.val = h.val * 64 + e.val
  omega

/-- The attention output brought back to the token layout reads, at channel k, coordinate k % 64 of head k / 64. -/
theorem tokens_of_heads (O : Heads.Idx → EReal) (htr : Heads.Transposes [0, 2, 1, 3] HeadsT) (hsc : HeadsT.ShapeCasts Tokens)
    (b : Fin 4) (n : Fin 2048) (k : Fin 768) :
    shapeCast Tokens (transpose HeadsT [0, 2, 1, 3] O htr) hsc (ix3 b n k)
      = O (ix4 b (⟨k.val / 64, by have := k.isLt; omega⟩ : Fin 12) n (⟨k.val % 64, Nat.mod_lt _ (by decide)⟩ : Fin 64)) := by
  have hk := k.isLt
  rw [shapeCast_apply (transpose HeadsT [0, 2, 1, 3] O htr) hsc (ix3 b n k)
    (ix4 b n (⟨k.val / 64, by omega⟩ : Fin 12) (⟨k.val % 64, Nat.mod_lt _ (by decide)⟩ : Fin 64)) (by
      rw [Shape.rowMajor_val_four, Shape.rowMajor_val_three]
      show ((b.val * 2048 + n.val) * 12 + k.val / 64) * 64 + k.val % 64 = (b.val * 2048 + n.val) * 768 + k.val
      omega)]
  exact transpose_apply [0, 2, 1, 3] O htr _ _ (fun a => match a with
    | ⟨0, _⟩ => rfl
    | ⟨1, _⟩ => rfl
    | ⟨2, _⟩ => rfl
    | ⟨3, _⟩ => rfl)

/-- THE TWO OUTPUT PROJECTIONS ARE ONE FUNCTION of the attention output, the weight and the bias. -/
theorem out_agree (O : Heads.Idx → EReal) (w : Weight.Idx → EReal) (bp : Vec768.Idx → EReal)
    (ht : Weight.Transposes [1, 0] Weight) (hlt : FTy.bf16.bits < FTy.f32.bits) (hs : Vec768.ShapeCasts Row)
    (htr : Heads.Transposes [0, 2, 1, 3] HeadsT) (hsc : HeadsT.ShapeCasts Tokens) (i : Tokens.Idx) :
    headsOut O (truncf (F := Ideal) .bf16 (transpose Weight [1, 0] w ht) hlt) (shapeCast Row bp hs) i
      = (∑ k : Fin 768, shapeCast Tokens (transpose HeadsT [0, 2, 1, 3] O htr) hsc (ix3 (i 0) (i 1) k) * w (ix2 (i 2) k))
        + bp (ix1 (i 2)) := by
  obtain ⟨b, n, c, rfl⟩ : ∃ (b : Fin 4) (n : Fin 2048) (c : Fin 768), i = ix3 b n c := ⟨i 0, i 1, i 2, eq_ix3 i⟩
  show headsOutAt O (truncf (F := Ideal) .bf16 (transpose Weight [1, 0] w ht) hlt) (shapeCast Row bp hs) b n c
    = (∑ k : Fin 768, shapeCast Tokens (transpose HeadsT [0, 2, 1, 3] O htr) hsc (ix3 b n k) * w (ix2 c k)) + bp (ix1 c)
  unfold headsOutAt
  refine congrArg₂ (· + ·) ?_ (shapeCast_a_1a_apply bp hs 0 c)
  rw [sum_chan (fun k => shapeCast Tokens (transpose HeadsT [0, 2, 1, 3] O htr) hsc (ix3 b n k) * w (ix2 c k))]
  refine Finset.sum_congr rfl fun h _ => Finset.sum_congr rfl fun e _ => ?_
  have hh := h.isLt
  have he := e.isLt
  rw [tokens_of_heads O htr hsc b n (chan h e)]
  refine congrArg₂ (· * ·) (congrArg O ?_) (transpose_ix2_apply w ht (chan h e) c)
  refine funext fun a => Fin.ext ?_
  match a with
  | ⟨0, _⟩ => rfl
  | ⟨1, _⟩ => show h.val = (h.val * 64 + e.val) / 64; omega
  | ⟨2, _⟩ => rfl
  | ⟨3, _⟩ => show e.val = (h.val * 64 + e.val) % 64; omega

/-- The reference's last three stages at an index: the contraction of the token-layout attention output against the
    rows of the weight, plus the bias at the channel. -/
theorem ref_v32 (x0 x1 x2 : Tokens.Idx → EReal) (x3 : Bias.Idx → EReal) (x4 x5 x6 x7 : Weight.Idx → EReal)
    (x8 : Vec768.Idx → EReal) (htr : Heads.Transposes [0, 2, 1, 3] HeadsT) (hsc : HeadsT.ShapeCasts Tokens) (i : Tokens.Idx) :
    Cert.ReferenceIdeal.Read.val_main_v32 (F := Ideal) x0 x1 x2 x3 x4 x5 x6 x7 x8 i
      = (∑ k : Fin 768, shapeCast Tokens (transpose HeadsT [0, 2, 1, 3]
            (Cert.ReferenceIdeal.Read.val_main_v26 (F := Ideal) x0 x1 x2 x3 x4 x5 x6) htr) hsc (ix3 (i 0) (i 1) k) * x7 (ix2 (i 2) k))
        + x8 (ix1 (i 2)) := by
  rw [Cert.ReferenceIdeal.Read.val_main_v32_apply, Cert.ReferenceIdeal.Read.val_main_v29_apply,
    Cert.ReferenceIdeal.Read.val_main_v31_apply, Cert.ReferenceIdeal.Read.val_main_v30_apply]
  have e3 : Cert.ReferenceIdeal.Read.idx_main_v30 (Cert.ReferenceIdeal.Read.idx_main_v31 i) = ix1 (i 2) :=
    funext fun a => Fin.ext (by match a with | ⟨0, _⟩ => rfl)
  rw [e3]
  refine congrArg₂ (· + ·) (Finset.sum_congr rfl fun k _ => ?_) rfl
  have e1 : Cert.ReferenceIdeal.Read.lidx_main_v29 i k = ix3 (i 0) (i 1) k :=
    funext fun a => Fin.ext (by match a with | ⟨0, _⟩ => rfl | ⟨1, _⟩ => rfl | ⟨2, _⟩ => rfl)
  have e2 : Cert.ReferenceIdeal.Read.ridx_main_v29 i k = ix2 (i 2) k :=
    funext fun a => Fin.ext (by match a with | ⟨0, _⟩ => rfl | ⟨1, _⟩ => rfl)
  rw [e1, e2]
  rfl

end Cert.Bridge

end
-- ==== Proof.AttentionPayload.lean ====
/-
  One query tile of one attention head, read at an entry.  The tile holds, for each of the 4 batch entries, 256 query
  rows of 64 coordinates; against it stand all 2048 key rows and all 2048 value rows of the same head and the 256 × 2048
  block of the relative-position bias.  For batch entry b and query row r the score against key row m is the inner
  product of the two rows over the 64 coordinates, times 1/8, plus the bias at (r, m).  The row of 2048 scores is turned
  into weights by the softmax taken from the row's largest score, and the entry at coordinate e is the weights' average
  of the value rows at e.  The unit head axis of the blocks is dropped on the way in and put back on the way out, the
  accumulators of the two products are zero, and the changes of float format are the identity on extended reals.
-/
import proofs.«159598_j32796370272889_2_alg».proof.Proof.Gen.KernelIdeal.Skeleton
import proofs.«159598_j32796370272889_2_alg».proof.Proof.AttentionSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttentionPayload

open Cert.KernelIdeal Cert.KernelIdeal.Gen Idealize.ShloMosaic Idealize.ShloMosaic.ValueIdx

/-! ## Unit axes dropped, added and broadcast -/

section Layout
variable {α : Type}

/-- An [m, 1, a, b] array viewed as [m, a, b] reads, at (k, i, j), the operand at (k, 0, i, j): both have the row-major
    position (k·a + i)·b + j. -/
theorem cast_m1ab_mab {m a b : ℕ} (x : (⟨4, ![m, 1, a, b]⟩ : Shape).Idx → α)
    (h : (⟨4, ![m, 1, a, b]⟩ : Shape).ShapeCasts ⟨3, ![m, a, b]⟩) (k : Fin m) (i : Fin a) (j : Fin b) :
    shapeCast ⟨3, ![m, a, b]⟩ x h (ix3 k i j) = x (ix4 k (0 : Fin 1) i j) :=
  shapeCast_apply x h _ _ (by
    rw [Shape.rowMajor_val_four, Shape.rowMajor_val_three]
    show ((k.val * 1 + 0) * a + i.val) * b + j.val = (k.val * a + i.val) * b + j.val
    rw [Nat.mul_one, Nat.add_zero])

/-- An [m, a, b] array viewed as [m, 1, a, b] reads, at (k, u, i, j), the operand at (k, i, j), whatever the unit
    coordinate u. -/
theorem cast_mab_m1ab {m a b : ℕ} (x : (⟨3, ![m, a, b]⟩ : Shape).Idx → α)
    (h : (⟨3, ![m, a, b]⟩ : Shape).ShapeCasts ⟨4, ![m, 1, a, b]⟩) (k : Fin m) (u : Fin 1) (i : Fin a) (j : Fin b) :
    shapeCast ⟨4, ![m, 1, a, b]⟩ x h (ix4 k u i j) = x (ix3 k i j) :=
  shapeCast_apply x h _ _ (by
    have hu : u.val = 0 := by omega
    rw [Shape.rowMajor_val_four, Shape.rowMajor_val_three]
    show (k.val * a + i.val) * b + j.val = ((k.val * 1 + u.val) * a + i.val) * b + j.val
    rw [hu, Nat.mul_one, Nat.add_zero])

/-- An [a, b] array viewed as a stack of columns [a, b, 1] reads, at (i, j, u), the operand at (i, j). -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A stack of columns [a, b, 1] broadcast along the last axis to [a, b, c] reads, at (i, j, k), the column's one
    entry at (i, j, 0). -/
theorem bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- One [1, b, c] slab broadcast over a leading axis to [a, b, c] reads, at (i, j, k), the slab at (0, j, k). -/
theorem bcast_1bc_abc {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The two lane reductions at a row -/

/-- Reducing the last axis of a [4, 256, 2048] array at row (b, r): lane k of that row is the entry (b, r, k). -/
theorem lane_at (h : S4x256x2048.Reduces [2] S4x256) (b : Fin 4) (r : Fin 256) (k : Fin 2048) :
    h.lift (ix2 b r) k = ix3 b r k :=
  funext fun a => Fin.ext (by
    match a with
    | ⟨0, _⟩ => rfl
    | ⟨1, _⟩ => rfl
    | ⟨2, _⟩ => rfl)

/-- The maximum over the last axis, taken from −∞, is the largest entry of the row. -/
theorem rowMax_at (src : FVec Ideal S4x256x2048 .f32) (h : S4x256x2048.Reduces [2] S4x256) (hφ : FKind.Formats .f32)
    (hacc : (0xFF800000#32 : BitVec 32) = 0xFF800000#32) (b : Fin 4) (r : Fin 256) :
    multiReduction .maximumf [2] S4x256 src 0xFF800000#32 h hφ hacc (ix2 b r)
      = Cert.Attention.rowMax (fun m : Fin 2048 => src (ix3 b r m)) := by
  refine (Ideal.multiReduction_maximumf_single src 0xFF800000#32 h hφ hacc (ix2 b r)).trans ?_
  have e : (src ∘ h.lift (ix2 b r)) = fun m : Fin 2048 => src (ix3 b r m) :=
    funext fun k => congrArg src (lane_at h b r k)
  rw [e]
  rfl

/-- The sum over the last axis, accumulated from zero, is the sum of the row. -/
theorem rowSum_at (src : FVec Ideal S4x256x2048 .f32) (h : S4x256x2048.Reduces [2] S4x256) (hφ : FKind.Formats .f32)
    (hacc : (0x00000000#32 : BitVec 32) = 0x00000000#32) (b : Fin 4) (r : Fin 256) :
    multiReduction .add [2] S4x256 src 0x00000000#32 h hφ hacc (ix2 b r) = ∑ k : Fin 2048, src (ix3 b r k) := by
  refine (Ideal.multiReduction_add_single src 0x00000000#32 h hφ hacc (ix2 b r)).trans ?_
  exact Finset.sum_congr rfl fun k _ => congrArg src (lane_at h b r k)

/-! ## The two batched products at an index

  Both products keep the batch axis 0 of either operand as the result's axis 0, the left operand's free axis 1 as the
  result's axis 1 and the right operand's free axis as the result's axis 2; they contract one axis of each operand.
  For the scores the right operand is contracted on its LAST axis (keys are rows), for the averages on its MIDDLE axis
  (the weights run along the value rows). -/

theorem scores_lhs0 (i : S4x256x2048.Idx) (q : dot_S4x256x64_S4x2048x64_S4x256x2048_2_2_1_1_0_0.contr.Idx) :
    (dot_S4x256x64_S4x2048x64_S4x256x2048_2_2_1_1_0_0.lhsIdx i q 0).val = (i 0).val := by
  unfold DotDims.lhsIdx
  rw [dif_pos (show (0 : Fin S4x256x64.rank) ∈ dot_S4x256x64_S4x2048x64_S4x256x2048_2_2_1_1_0_0.lhsBatch by decide)]
  rfl

theorem scores_lhs1 (i : S4x256x2048.Idx) (q : dot_S4x256x64_S4x2048x64_S4x256x2048_2_2_1_1_0_0.contr.Idx) :
    (dot_S4x256x64_S4x2048x64_S4x256x2048_2_2_1_1_0_0.lhsIdx i q 1).val = (i 1).val := by
  unfold DotDims.lhsIdx
  rw [dif_neg (show ¬(1 : Fin S4x256x64.rank) ∈ dot_S4x256x64_S4x2048x64_S4x256x2048_2_2_1_1_0_0.lhsBatch by decide), dif_pos (show (1 : Fin S4x256x64.rank) ∈ dot_S4x256x64_S4x2048x64_S4x256x2048_2_2_1_1_0_0.lhsNonContracting by decide)]
  rfl

theorem scores_lhs2 (i : S4x256x2048.Idx) (q : dot_S4x256x64_S4x2048x64_S4x256x2048_2_2_1_1_0_0.contr.Idx) :
    (dot_S4x256x64_S4x2048x64_S4x256x2048_2_2_1_1_0_0.lhsIdx i q 2).val = (q ⟨0, by decide⟩).val :=
  dot_S4x256x64_S4x2048x64_S4x256x2048_2_2_1_1_0_0.lhsIdx_val_of_single rfl i q

theorem scores_rhs0 (i : S4x256x2048.Idx) (q : dot_S4x256x64_S4x2048x64_S4x256x2048_2_2_1_1_0_0.contr.Idx) :
    (dot_S4x256x64_S4x2048x64_S4x256x2048_2_2_1_1_0_0.rhsIdx i q 0).val = (i 0).val := by
  unfold DotDims.rhsIdx
  rw [dif_pos (show (0 : Fin S4x2048x64.rank) ∈ dot_S4x256x64_S4x2048x64_S4x256x2048_2_2_1_1_0_0.rhsBatch by decide)]
  rfl

theorem scores_rhs1 (i : S4x256x2048.Idx) (q : dot_S4x256x64_S4x2048x64_S4x256x2048_2_2_1_1_0_0.contr.Idx) :
    (dot_S4x256x64_S4x2048x64_S4x256x2048_2_2_1_1_0_0.rhsIdx i q 1).val = (i 2).val := by
  unfold DotDims.rhsIdx
  rw [dif_neg (show ¬(1 : Fin S4x2048x64.rank) ∈ dot_S4x256x64_S4x2048x64_S4x256x2048_2_2_1_1_0_0.rhsBatch by decide), dif_pos (show (1 : Fin S4x2048x64.rank) ∈ dot_S4x256x64_S4x2048x64_S4x256x2048_2_2_1_1_0_0.rhsNonContracting by decide)]
  rfl

theorem scores_rhs2 (i : S4x256x2048.Idx) (q : dot_S4x256x64_S4x2048x64_S4x256x2048_2_2_1_1_0_0.contr.Idx) :
    (dot_S4x256x64_S4x2048x64_S4x256x2048_2_2_1_1_0_0.rhsIdx i q 2).val = (q ⟨0, by decide⟩).val :=
  dot_S4x256x64_S4x2048x64_S4x256x2048_2_2_1_1_0_0.rhsIdx_val_of_single rfl i q

/-- Queries against keys, accumulated from zero: at (b, n, m) the inner product of query row (b, n) and key row (b, m)
    over the 64 coordinates. -/
theorem scores_at (l : FVec Ideal S4x256x64 .bf16) (r : FVec Ideal S4x2048x64 .bf16) (b : Fin 4) (n : Fin 256) (m : Fin 2048) :
    matmul dot_S4x256x64_S4x2048x64_S4x256x2048_2_2_1_1_0_0 none l r (constant (F := Ideal) S4x256x2048 .f32 0x00000000#32) (ix3 b n m)
      = ∑ e : Fin 64, l (ix3 b n e) * r (ix3 b m e) := by
  refine (Ideal.matmul_constant_zero_apply dot_S4x256x64_S4x2048x64_S4x256x2048_2_2_1_1_0_0 none l r (ix3 b n m)).trans ?_
  rw [← Equiv.sum_comp (ValueIdx.contrEquiv1 dot_S4x256x64_S4x2048x64_S4x256x2048_2_2_1_1_0_0 64 rfl rfl).symm]
  refine Finset.sum_congr rfl fun k _ => ?_
  have hk := ValueIdx.contrEquiv1_symm_val dot_S4x256x64_S4x2048x64_S4x256x2048_2_2_1_1_0_0 64 rfl rfl k
  have el : dot_S4x256x64_S4x2048x64_S4x256x2048_2_2_1_1_0_0.lhsIdx (ix3 b n m) ((ValueIdx.contrEquiv1 dot_S4x256x64_S4x2048x64_S4x256x2048_2_2_1_1_0_0 64 rfl rfl).symm k) = ix3 b n k := funext fun a => Fin.ext (by
    match a with
    | ⟨0, _⟩ => exact scores_lhs0 _ _
    | ⟨1, _⟩ => exact scores_lhs1 _ _
    | ⟨2, _⟩ => exact (scores_lhs2 _ _).trans hk)
  have er : dot_S4x256x64_S4x2048x64_S4x256x2048_2_2_1_1_0_0.rhsIdx (ix3 b n m) ((ValueIdx.contrEquiv1 dot_S4x256x64_S4x2048x64_S4x256x2048_2_2_1_1_0_0 64 rfl rfl).symm k) = ix3 b m k := funext fun a => Fin.ext (by
    match a with
    | ⟨0, _⟩ => exact scores_rhs0 _ _
    | ⟨1, _⟩ => exact scores_rhs1 _ _
    | ⟨2, _⟩ => exact (scores_rhs2 _ _).trans hk)
  rw [el, er]

theorem avg_lhs0 (i : S4x256x64.Idx) (q : dot_S4x256x2048_S4x2048x64_S4x256x64_2_1_1_2_0_0.contr.Idx) :
    (dot_S4x256x2048_S4x2048x64_S4x256x64_2_1_1_2_0_0.lhsIdx i q 0).val = (i 0).val := by
  unfold DotDims.lhsIdx
  rw [dif_pos (show (0 : Fin S4x256x2048.rank) ∈ dot_S4x256x2048_S4x2048x64_S4x256x64_2_1_1_2_0_0.lhsBatch by decide)]
  rfl

theorem avg_lhs1 (i : S4x256x64.Idx) (q : dot_S4x256x2048_S4x2048x64_S4x256x64_2_1_1_2_0_0.contr.Idx) :
    (dot_S4x256x2048_S4x2048x64_S4x256x64_2_1_1_2_0_0.lhsIdx i q 1).val = (i 1).val := by
  unfold DotDims.lhsIdx
  rw [dif_neg (show ¬(1 : Fin S4x256x2048.rank) ∈ dot_S4x256x2048_S4x2048x64_S4x256x64_2_1_1_2_0_0.lhsBatch by decide), dif_pos (show (1 : Fin S4x256x2048.rank) ∈ dot_S4x256x2048_S4x2048x64_S4x256x64_2_1_1_2_0_0.lhsNonContracting by decide)]
  rfl

theorem avg_lhs2 (i : S4x256x64.Idx) (q : dot_S4x256x2048_S4x2048x64_S4x256x64_2_1_1_2_0_0.contr.Idx) :
    (dot_S4x256x2048_S4x2048x64_S4x256x64_2_1_1_2_0_0.lhsIdx i q 2).val = (q ⟨0, by decide⟩).val :=
  dot_S4x256x2048_S4x2048x64_S4x256x64_2_1_1_2_0_0.lhsIdx_val_of_single rfl i q

theorem avg_rhs0 (i : S4x256x64.Idx) (q : dot_S4x256x2048_S4x2048x64_S4x256x64_2_1_1_2_0_0.contr.Idx) :
    (dot_S4x256x2048_S4x2048x64_S4x256x64_2_1_1_2_0_0.rhsIdx i q 0).val = (i 0).val := by
  unfold DotDims.rhsIdx
  rw [dif_pos (show (0 : Fin S4x2048x64.rank) ∈ dot_S4x256x2048_S4x2048x64_S4x256x64_2_1_1_2_0_0.rhsBatch by decide)]
  rfl

theorem avg_rhs1 (i : S4x256x64.Idx) (q : dot_S4x256x2048_S4x2048x64_S4x256x64_2_1_1_2_0_0.contr.Idx) :
    (dot_S4x256x2048_S4x2048x64_S4x256x64_2_1_1_2_0_0.rhsIdx i q 1).val = (q ⟨0, by decide⟩).val :=
  dot_S4x256x2048_S4x2048x64_S4x256x64_2_1_1_2_0_0.rhsIdx_val_of_single rfl i q

theorem avg_rhs2 (i : S4x256x64.Idx) (q : dot_S4x256x2048_S4x2048x64_S4x256x64_2_1_1_2_0_0.contr.Idx) :
    (dot_S4x256x2048_S4x2048x64_S4x256x64_2_1_1_2_0_0.rhsIdx i q 2).val = (i 2).val := by
  unfold DotDims.rhsIdx
  rw [dif_neg (show ¬(2 : Fin S4x2048x64.rank) ∈ dot_S4x256x2048_S4x2048x64_S4x256x64_2_1_1_2_0_0.rhsBatch by decide), dif_pos (show (2 : Fin S4x2048x64.rank) ∈ dot_S4x256x2048_S4x2048x64_S4x256x64_2_1_1_2_0_0.rhsNonContracting by decide)]
  rfl

/-- Weights against values, accumulated from zero: at (b, n, e) the sum over the 2048 key positions m of the weight
    (b, n, m) times the value (b, m, e). -/
theorem avg_at (p : FVec Ideal S4x256x2048 .bf16) (v : FVec Ideal S4x2048x64 .bf16) (b : Fin 4) (n : Fin 256) (e : Fin 64) :
    matmul dot_S4x256x2048_S4x2048x64_S4x256x64_2_1_1_2_0_0 none p v (constant (F := Ideal) S4x256x64 .f32 0x00000000#32) (ix3 b n e)
      = ∑ m : Fin 2048, p (ix3 b n m) * v (ix3 b m e) := by
  refine (Ideal.matmul_constant_zero_apply dot_S4x256x2048_S4x2048x64_S4x256x64_2_1_1_2_0_0 none p v (ix3 b n e)).trans ?_
  rw [← Equiv.sum_comp (ValueIdx.contrEquiv1 dot_S4x256x2048_S4x2048x64_S4x256x64_2_1_1_2_0_0 2048 rfl rfl).symm]
  refine Finset.sum_congr rfl fun k _ => ?_
  have hk := ValueIdx.contrEquiv1_symm_val dot_S4x256x2048_S4x2048x64_S4x256x64_2_1_1_2_0_0 2048 rfl rfl k
  have el : dot_S4x256x2048_S4x2048x64_S4x256x64_2_1_1_2_0_0.lhsIdx (ix3 b n e) ((ValueIdx.contrEquiv1 dot_S4x256x2048_S4x2048x64_S4x256x64_2_1_1_2_0_0 2048 rfl rfl).symm k) = ix3 b n k := funext fun a => Fin.ext (by
    match a with
    | ⟨0, _⟩ => exact avg_lhs0 _ _
    | ⟨1, _⟩ => exact avg_lhs1 _ _
    | ⟨2, _⟩ => exact (avg_lhs2 _ _).trans hk)
  have er : dot_S4x256x2048_S4x2048x64_S4x256x64_2_1_1_2_0_0.rhsIdx (ix3 b n e) ((ValueIdx.contrEquiv1 dot_S4x256x2048_S4x2048x64_S4x256x64_2_1_1_2_0_0 2048 rfl rfl).symm k) = ix3 b k e := funext fun a => Fin.ext (by
    match a with
    | ⟨0, _⟩ => exact avg_rhs0 _ _
    | ⟨1, _⟩ => exact (avg_rhs1 _ _).trans hk
    | ⟨2, _⟩ => exact avg_rhs2 _ _)
  rw [el, er]

/-! ## The payload at an entry -/

/-- The exponential of a vector, entry by entry. -/
theorem exp_apply {s : Shape} {φ : FTy} (x : FVec Ideal s φ) (i : s.Idx) : exp x i = Ideal.exp (x i) := rfl

/-- THE ATTENTION TILE AT AN ENTRY.  For batch entry b, query row r of the tile and coordinate e, the stored value is
    the softmax-weighted sum, over the 2048 key positions m, of the value rows at e, the row of scores being the inner
    products of query row (b, r) with the key rows (b, m) over the 64 coordinates, times 1/8, plus the bias at (r, m).
    The weight of position m is the row's m-th exponential (taken after subtracting the row's largest score) over the
    sum of the row's exponentials; the second product then sums weight · value over m. -/
theorem pay (x0 : Vec Ideal S4x1x256x64 .bf16) (x1 x2 : Vec Ideal S4x1x2048x64 .bf16) (x3 : Vec Ideal S1x256x2048 .f32)
    (b : Fin 4) (r : Fin 256) (e : Fin 64) :
    k3_pay1 (F := Ideal) x0 x1 x2 x3 (ix4 b (0 : Fin 1) r e)
      = Cert.Attention.mix
          (fun m : Fin 2048 => (∑ e' : Fin 64, x0 (ix4 b (0 : Fin 1) r e') * x1 (ix4 b (0 : Fin 1) m e')) * Ideal.ofBits .f32 0x3E000000#32
                                + x3 (ix3 (0 : Fin 1) r m))
          (fun m : Fin 2048 => x2 (ix4 b (0 : Fin 1) m e)) := by
  unfold k3_pay1
  -- the unit head axis put back, the last change of format, and the product of weights and values
  simp only [cast_mab_m1ab, truncf_apply, avg_at]
  -- the weight at (b, r, m): exponential over the broadcast row sum, down to the two reductions at row (b, r)
  simp only [divf_apply, exp_apply, subf_apply, addf_apply, mulf_apply, broadcast_apply, cast_m1ab_mab, bcast_ab1_abc,
    cast_ab_ab1, bcast_1bc_abc, shapeCast_shapeCast, scores_at]
  -- the row sum, then its summands down to the row maximum
  rw [rowSum_at]
  simp only [exp_apply, subf_apply, addf_apply, mulf_apply, broadcast_apply, cast_m1ab_mab, bcast_ab1_abc,
    cast_ab_ab1, bcast_1bc_abc, shapeCast_shapeCast, scores_at]
  -- the row maximum, then the scores it is taken over
  rw [rowMax_at]
  simp only [addf_apply, mulf_apply, broadcast_apply, cast_m1ab_mab, bcast_1bc_abc, shapeCast_shapeCast, scores_at]
  -- what is left is the weighted sum written out
  rfl

end Cert.KernelIdeal.AttentionPayload

end
-- ==== Proof.AttentionRegion.lean ====
/-
  The attention region, as the array it leaves.  The grid is 12 heads × 8 query tiles; point (h, qi) reads the 256
  query rows 256·qi … 256·qi + 255 of head h for all four batch entries, the whole of head h's keys and values, and
  the bias block at (h, qi), and writes the same 256 rows of head h of the output.  Every point computes the one
  function `attend` — scores, softmax along the key positions, weighted average of the value rows — on its own rows,
  and the 96 points cover the output array.
-/
import proofs.«159598_j32796370272889_2_alg».proof.Proof.Gen.KernelIdeal.Frame
import proofs.«159598_j32796370272889_2_alg».proof.Proof.AttentionSpec
import proofs.«159598_j32796370272889_2_alg».proof.Proof.AttentionPayload
import Idealize.ShloMosaic.Lib.Pipeline.Value
import Idealize.ShloMosaic.Lib.ValueIdx

set_option maxRecDepth 16384

noncomputable section

namespace Cert.KernelIdeal.AttentionRegion

open Cert.KernelIdeal Cert.KernelIdeal.Gen Cert.Attention
open Idealize.ShloMosaic Idealize.ShloMosaic.TcCoe Idealize.ShloMosaic.ValueIdx Idealize.SL.Sem
open Idealize.ShloMosaic.Pipeline (Dat)

open Cert.KernelIdeal.AttentionPayload (pay)

variable (V : (c : Dev nD) → (b : Ref sig .tc) → Buf (Elt Ideal) ((c : Thread nD τ).loc b))

theorem zeroOffsets4 : (![0, 0, 0, 0] : Fin 4 → Nat) = fun _ => 0 := funext fun a => by fin_cases a <;> rfl
theorem zeroOffsets3 : (![0, 0, 0] : Fin 3 → Nat) = fun _ => 0 := funext fun a => by fin_cases a <;> rfl

/-- Point (h, qi) reads the query block and writes the output block at (·, h, qi, ·), reads the whole of head h's keys
    and values, and the bias block at (h, qi, ·). -/
theorem blockIndices : ∀ t : Fin cfg3.N,
    win3_0.index t (0 : Fin 4) = 0 ∧ win3_0.index t (1 : Fin 4) = win3_4.index t (1 : Fin 4)
    ∧ win3_0.index t (2 : Fin 4) = win3_4.index t (2 : Fin 4) ∧ win3_0.index t (3 : Fin 4) = 0
    ∧ win3_1.index t (0 : Fin 4) = 0 ∧ win3_1.index t (1 : Fin 4) = win3_4.index t (1 : Fin 4)
    ∧ win3_1.index t (2 : Fin 4) = 0 ∧ win3_1.index t (3 : Fin 4) = 0
    ∧ win3_2.index t (0 : Fin 4) = 0 ∧ win3_2.index t (1 : Fin 4) = win3_4.index t (1 : Fin 4)
    ∧ win3_2.index t (2 : Fin 4) = 0 ∧ win3_2.index t (3 : Fin 4) = 0
    ∧ win3_3.index t (0 : Fin 3) = win3_4.index t (1 : Fin 4) ∧ win3_3.index t (1 : Fin 3) = win3_4.index t (2 : Fin 4)
    ∧ win3_3.index t (2 : Fin 3) = 0
    ∧ win3_4.index t (0 : Fin 4) = 0 ∧ win3_4.index t (3 : Fin 4) = 0
    ∧ win3_4.index t (1 : Fin 4) ≤ 11 ∧ win3_4.index t (2 : Fin 4) ≤ 7 :=
  (by decide +kernel : ∀ t : Fin grid3.N, _)

/-- Every (head, query tile) pair is some point's output block. -/
theorem blockRows : ∀ (q1 : Fin 12) (q2 : Fin 8), ∃ t : Fin cfg3.N, win3_4.index t = ![0, q1.val, q2.val, 0] :=
  (by decide +kernel : ∀ (q1 : Fin 12) (q2 : Fin 8), ∃ t : Fin grid3.N, win3_4.index t = ![0, q1.val, q2.val, 0])

/-- The query block at a local position is the query array at the global one. -/
theorem readQuery (c : Dev nD) (t : Fin cfg3.N) (y : S4x1x256x64.Idx) (i : S4x12x2048x64.Idx)
    (h0 : (i 0).val = win3_0.index t 0 * 4 + (y 0).val) (h1 : (i 1).val = win3_0.index t 1 * 1 + (y 1).val)
    (h2 : (i 2).val = win3_0.index t 2 * 256 + (y 2).val) (h3 : (i 3).val = win3_0.index t 3 * 64 + (y 3).val) :
    iblk3 V c 0 t y = V c main_v17 i := by
  unfold iblk3
  rw [View.read_apply]
  show V c main_v17 (((cfg3.win 0).blk t).view.emb y) = V c main_v17 i
  refine congrArg _ (funext fun a => Fin.ext ?_)
  match a with
  | ⟨0, _⟩ => show win3_0.index t 0 * 4 + 1 * (y 0).val = (i 0).val; omega
  | ⟨1, _⟩ => show win3_0.index t 1 * 1 + 1 * (y 1).val = (i 1).val; omega
  | ⟨2, _⟩ => show win3_0.index t 2 * 256 + 1 * (y 2).val = (i 2).val; omega
  | ⟨3, _⟩ => show win3_0.index t 3 * 64 + 1 * (y 3).val = (i 3).val; omega

/-- The key block at a local position is the key array at the global one. -/
theorem readKey (c : Dev nD) (t : Fin cfg3.N) (y : S4x1x2048x64.Idx) (i : S4x12x2048x64.Idx)
    (h0 : (i 0).val = win3_1.index t 0 * 4 + (y 0).val) (h1 : (i 1).val = win3_1.index t 1 * 1 + (y 1).val)
    (h2 : (i 2).val = win3_1.index t 2 * 2048 + (y 2).val) (h3 : (i 3).val = win3_1.index t 3 * 64 + (y 3).val) :
    iblk3 V c 1 t y = V c main_v19 i := by
  unfold iblk3
  rw [View.read_apply]
  show V c main_v19 (((cfg3.win 1).blk t).view.emb y) = V c main_v19 i
  refine congrArg _ (funext fun a => Fin.ext ?_)
  match a with
  | ⟨0, _⟩ => show win3_1.index t 0 * 4 + 1 * (y 0).val = (i 0).val; omega
  | ⟨1, _⟩ => show win3_1.index t 1 * 1 + 1 * (y 1).val = (i 1).val; omega
  | ⟨2, _⟩ => show win3_1.index t 2 * 2048 + 1 * (y 2).val = (i 2).val; omega
  | ⟨3, _⟩ => show win3_1.index t 3 * 64 + 1 * (y 3).val = (i 3).val; omega

/-- The value block at a local position is the value array at the global one. -/
theorem readValue (c : Dev nD) (t : Fin cfg3.N) (y : S4x1x2048x64.Idx) (i : S4x12x2048x64.Idx)
    (h0 : (i 0).val = win3_2.index t 0 * 4 + (y 0).val) (h1 : (i 1).val = win3_2.index t 1 * 1 + (y 1).val)
    (h2 : (i 2).val = win3_2.index t 2 * 2048 + (y 2).val) (h3 : (i 3).val = win3_2.index t 3 * 64 + (y 3).val) :
    iblk3 V c 2 t y = V c main_v21 i := by
  unfold iblk3
  rw [View.read_apply]
  show V c main_v21 (((cfg3.win 2).blk t).view.emb y) = V c main_v21 i
  refine congrArg _ (funext fun a => Fin.ext ?_)
  match a with
  | ⟨0, _⟩ => show win3_2.index t 0 * 4 + 1 * (y 0).val = (i 0).val; omega
  | ⟨1, _⟩ => show win3_2.index t 1 * 1 + 1 * (y 1).val = (i 1).val; omega
  | ⟨2, _⟩ => show win3_2.index t 2 * 2048 + 1 * (y 2).val = (i 2).val; omega
  | ⟨3, _⟩ => show win3_2.index t 3 * 64 + 1 * (y 3).val = (i 3).val; omega

/-- The bias block at a local position is the bias array at the global one. -/
theorem readBias (c : Dev nD) (t : Fin cfg3.N) (y : S1x256x2048.Idx) (i : S12x2048x2048.Idx)
    (h0 : (i 0).val = win3_3.index t 0 * 1 + (y 0).val) (h1 : (i 1).val = win3_3.index t 1 * 256 + (y 1).val)
    (h2 : (i 2).val = win3_3.index t 2 * 2048 + (y 2).val) :
    iblk3 V c 3 t y = V c main_arg3 i := by
  unfold iblk3
  rw [View.read_apply]
  show V c main_arg3 (((cfg3.win 3).blk t).view.emb y) = V c main_arg3 i
  refine congrArg _ (funext fun a => Fin.ext ?_)
  match a with
  | ⟨0, _⟩ => show win3_3.index t 0 * 1 + 1 * (y 0).val = (i 0).val; omega
  | ⟨1, _⟩ => show win3_3.index t 1 * 256 + 1 * (y 1).val = (i 1).val; omega
  | ⟨2, _⟩ => show win3_3.index t 2 * 2048 + 1 * (y 2).val = (i 2).val; omega

/-- What point t writes back is its block of `attend` of the four arrays the region finds. -/
theorem tileWritten (c : Dev nD) (t : Fin cfg3.N) :
    (dat3 (F := Ideal) V c).flushed 4 t
      = ((cfg3.win 4).blk t).view.read (Elt Ideal) (attend (V c main_v17) (V c main_v19) (V c main_v21) (V c main_arg3)) := by
  show (cfg3.win 4).cut (grid3.coords t) ((dat3 V c).after 4 t) = _
  rw [after3_4]
  unfold out3_4
  rw [View.canon_unit_zero zeroOffsets4]
  simp only [View.ld_unit_zero (S := S4x1x256x64) zeroOffsets4, View.ld_unit_zero (S := S4x1x2048x64) zeroOffsets4,
    View.ld_unit_zero (S := S1x256x2048) zeroOffsets3]
  obtain ⟨a0, a1, a2, a3, k0, k1, k2, k3, v0, v1, v2, v3, s0, s1, s2, o0, o3, o1, o2⟩ := blockIndices t
  funext j
  obtain ⟨b, u, r, e, rfl⟩ : ∃ (b : Fin 4) (u : Fin 1) (r : Fin 256) (e : Fin 64), j = ix4 b u r e :=
    ⟨j 0, j 1, j 2, j 3, eq_ix4 j⟩
  obtain rfl : u = 0 := Subsingleton.elim _ _
  show k3_pay1 (iblk3 V c 0 t) (iblk3 V c 1 t) (iblk3 V c 2 t) (iblk3 V c 3 t) (ix4 b (0 : Fin 1) r e)
    = attend (V c main_v17) (V c main_v19) (V c main_v21) (V c main_arg3) (((cfg3.win 4).blk t).view.emb (ix4 b (0 : Fin 1) r e))
  refine (pay (iblk3 V c 0 t) (iblk3 V c 1 t) (iblk3 V c 2 t) (iblk3 V c 3 t) b r e).trans ?_
  have hb : b.val < 4 := b.isLt
  have hr : r.val < 256 := r.isLt
  have he : e.val < 64 := e.isLt
  have g0 : ((((cfg3.win 4).blk t).view.emb (ix4 b (0 : Fin 1) r e)) 0).val = win3_4.index t 0 * 4 + 1 * b.val := rfl
  have g1 : ((((cfg3.win 4).blk t).view.emb (ix4 b (0 : Fin 1) r e)) 1).val = win3_4.index t 1 * 1 + 1 * 0 := rfl
  have g2 : ((((cfg3.win 4).blk t).view.emb (ix4 b (0 : Fin 1) r e)) 2).val = win3_4.index t 2 * 256 + 1 * r.val := rfl
  have g3 : ((((cfg3.win 4).blk t).view.emb (ix4 b (0 : Fin 1) r e)) 3).val = win3_4.index t 3 * 64 + 1 * e.val := rfl
  unfold attend attendAt
  refine congrArg₂ mix (funext fun m => ?_) (funext fun m => ?_)
  · unfold score
    have hm : m.val < 2048 := m.isLt
    refine congrArg₂ (· + ·) (congrArg (· * Ideal.ofBits .f32 0x3E000000#32)
      (Finset.sum_congr rfl fun e' _ => congrArg₂ (· * ·) ?_ ?_)) ?_
    · exact readQuery V c t (ix4 b (0 : Fin 1) r e') _ (by show _ = win3_0.index t 0 * 4 + b.val; rw [g0]; omega)
        (by show _ = win3_0.index t 1 * 1 + 0; rw [g1]; omega) (by show _ = win3_0.index t 2 * 256 + r.val; rw [g2]; omega)
        (by show e'.val = win3_0.index t 3 * 64 + e'.val; omega)
    · exact readKey V c t (ix4 b (0 : Fin 1) m e') _ (by show _ = win3_1.index t 0 * 4 + b.val; rw [g0]; omega)
        (by show _ = win3_1.index t 1 * 1 + 0; rw [g1]; omega) (by show m.val = win3_1.index t 2 * 2048 + m.val; omega)
        (by show e'.val = win3_1.index t 3 * 64 + e'.val; omega)
    · exact readBias V c t (ix3 (0 : Fin 1) r m) _ (by show _ = win3_3.index t 0 * 1 + 0; rw [g1]; omega)
        (by show _ = win3_3.index t 1 * 256 + r.val; rw [g2]; omega) (by show m.val = win3_3.index t 2 * 2048 + m.val; omega)
  · have hm : m.val < 2048 := m.isLt
    exact readValue V c t (ix4 b (0 : Fin 1) m e) _ (by show _ = win3_2.index t 0 * 4 + b.val; rw [g0]; omega)
      (by show _ = win3_2.index t 1 * 1 + 0; rw [g1]; omega) (by show m.val = win3_2.index t 2 * 2048 + m.val; omega)
      (by show _ = win3_2.index t 3 * 64 + e.val; rw [g3]; omega)

/-- A position of the output is in point t's block exactly when each coordinate is in the block's range. -/
theorem inBlock (t : Fin cfg3.N) (i : S4x12x2048x64.Idx) :
    i ∈ ((cfg3.win 4).blk t).view.set ↔ ∀ a : Fin 4, win3_4.index t a * S4x1x256x64.size a ≤ (i a).val
      ∧ (i a).val < win3_4.index t a * S4x1x256x64.size a + S4x1x256x64.size a := by
  show i ∈ ((View.whole main_v22).slice (win3_4.rect t)).set ↔ _
  rw [View.set_slice_whole, Rect.mem_set_unit]
  exact Iff.rfl

/-- The 96 points cover the output: position (b, h, n, e) belongs to point (h, n / 256). -/
theorem tilesCover (i : S4x12x2048x64.Idx) :
    ∃ t : Fin cfg3.N, (cfg3.win 4).flush t = true ∧ i ∈ ((cfg3.win 4).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := blockRows ⟨(i 1).val, hi1⟩ ⟨(i 2).val / 256, by omega⟩
  have q0 : win3_4.index t (0 : Fin 4) = 0 := congrFun ht 0
  have q1 : win3_4.index t (1 : Fin 4) = (i 1).val := congrFun ht 1
  have q2 : win3_4.index t (2 : Fin 4) = (i 2).val / 256 := congrFun ht 2
  have q3 : win3_4.index t (3 : Fin 4) = 0 := congrFun ht 3
  refine ⟨t, flush3_4 t, ?_⟩
  rw [inBlock]
  intro a
  match a with
  | ⟨0, _⟩ => show win3_4.index t (0 : Fin 4) * 4 ≤ (i 0).val ∧ (i 0).val < win3_4.index t (0 : Fin 4) * 4 + 4; omega
  | ⟨1, _⟩ => show win3_4.index t (1 : Fin 4) * 1 ≤ (i 1).val ∧ (i 1).val < win3_4.index t (1 : Fin 4) * 1 + 1; omega
  | ⟨2, _⟩ => show win3_4.index t (2 : Fin 4) * 256 ≤ (i 2).val ∧ (i 2).val < win3_4.index t (2 : Fin 4) * 256 + 256; omega
  | ⟨3, _⟩ => show win3_4.index t (3 : Fin 4) * 64 ≤ (i 3).val ∧ (i 3).val < win3_4.index t (3 : Fin 4) * 64 + 64; omega

/-- THE ATTENTION OUTPUT ARRAY, whatever the region finds in its four operands. -/
theorem result (c : Dev nD) :
    (dat3 (F := Ideal) V c).arrAt 4 cfg3.N = attend (V c main_v17) (V c main_v19) (V c main_v21) (V c main_arg3) :=
  (dat3 (F := Ideal) V c).arrAt_eq_of_cover 4 (attend (V c main_v17) (V c main_v19) (V c main_v21) (V c main_arg3))
    (fun t _ => tileWritten V c t) tilesCover

end Cert.KernelIdeal.AttentionRegion

end
-- ==== Proof.OutputProjection.lean ====
/-
  The output projection, as the array it leaves.

  The region walks a 4 × 4 grid of tiles.  Tile (b, q) reads, of the attention output O (batch × head × position ×
  coordinate), the twelve heads of batch entry b at the 512 positions 512·q … 512·q + 511; it reads the whole weight
  matrix W (768 × 768, already transposed, so that row 64·h + e belongs to coordinate e of head h) and the whole bias
  row B, and it writes the 512 × 768 tile of the result at batch entry b and the same positions.

  Inside a tile the sum starts from zero; for each head h in turn the 512 × 64 slice of that head is multiplied by the
  64 × 768 slice of W made of rows 64·h … 64·h + 63, and the product is added on; last the bias row is added to every
  row.  So the entry at local row r and column c is

      ((…((0 + Σₑ O(b, 0, n, e) · W(e, c)) + Σₑ O(b, 1, n, e) · W(64 + e, c)) + …) + Σₑ O(b, 11, n, e) · W(704 + e, c)) + B(0, c)

  with n = 512·q + r, which is Σ over the twelve heads of Σₑ O(b, h, n, e) · W(64·h + e, c), plus B(0, c): only the
  associativity of + on the extended reals and 0 + x = x are used, so no finiteness is needed.  Every tile computes this
  one function of (b, n, c) on its own positions, and the sixteen tiles cover all 4 × 2048 positions.
-/
import proofs.«159598_j32796370272889_2_alg».proof.Proof.Gen.KernelIdeal.Frame
import proofs.«159598_j32796370272889_2_alg».proof.Proof.AttentionSpec
import proofs.«159598_j32796370272889_2_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.OutProjection

open Cert.KernelIdeal Cert.KernelIdeal.Gen
open Cert.Attention (chan headsOutAt headsOut)
open Idealize.ShloMosaic Idealize.ShloMosaic.TcCoe Idealize.ShloMosaic.ValueIdx Idealize.SL.Sem
open Idealize.ShloMosaic.Pipeline (Dat)

/-! ## One tile's arithmetic, over any three operand blocks -/

/-- A head's product contracts the head's 64 coordinates against 64 rows of the weight: a plain matrix product. -/
theorem plainHead : DotPlain.IsPlain dot_S512x64_S64x768_S512x768_1_0_0_1_n_n := ⟨rfl, rfl, rfl, rfl, rfl, rfl⟩

/-- A [1, 1, a, b] array viewed as [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Row r of a head's slice against column c of a weight slice: the sum over the head's 64 coordinates. -/
def dotRow (x : S1x1x512x64.Idx → EReal) (w : S64x768.Idx → EReal) (r : Fin 512) (c : Fin 768) : EReal :=
  ∑ e : Fin 64, x (ix4 (0 : Fin 1) (0 : Fin 1) r e) * w (ix2 e c)

/-- One head's product into a zero accumulator, at (r, c). -/
theorem headProduct (x : FVec Ideal S1x1x512x64 .bf16) (w : FVec Ideal S64x768 .bf16)
    (hx : S1x1x512x64.ShapeCasts S512x64) (r : Fin 512) (c : Fin 768) :
    matmul dot_S512x64_S64x768_S512x768_1_0_0_1_n_n none (shapeCast S512x64 x hx) w
        (constant (F := Ideal) S512x768 .f32 0x00000000#32) (ix2 r c) = dotRow x w r c := by
  rw [DotPlain.matmul_zero_apply plainHead]
  unfold dotRow
  exact Finset.sum_congr rfl fun e _ => congrArg₂ (· * ·) (shapeCast_11ab_ab_apply x hx r e) rfl

/-- Heads 0 to 3, added on to zero in turn. -/
theorem firstFour (v1 : Vec Ideal S1x1x512x64 .bf16) (v3 : Vec Ideal S64x768 .bf16) (v7 : Vec Ideal S1x1x512x64 .bf16)
    (v9 : Vec Ideal S64x768 .bf16) (v13 : Vec Ideal S1x1x512x64 .bf16) (v15 : Vec Ideal S64x768 .bf16)
    (v19 : Vec Ideal S1x1x512x64 .bf16) (v21 : Vec Ideal S64x768 .bf16) (r : Fin 512) (c : Fin 768) :
    k4_pay2 (F := Ideal) v1 v3 v7 v9 v13 v15 v19 v21 (ix2 r c)
      = 0 + dotRow v1 v3 r c + dotRow v7 v9 r c + dotRow v13 v15 r c + dotRow v19 v21 r c := by
  unfold k4_pay2
  simp only [shapeCast_self]
  simp only [addf_apply]
  rw [headProduct, headProduct, headProduct, headProduct]
  exact congrArg (fun z : EReal => z + dotRow v1 v3 r c + dotRow v7 v9 r c + dotRow v13 v15 r c + dotRow v19 v21 r c)
    Ideal.ofBits_zero_f32

/-- Heads 4 to 7, added on to what heads 0 to 3 left. -/
theorem nextFour (acc : FVec Ideal S512x768 .f32) (v25 : Vec Ideal S1x1x512x64 .bf16) (v27 : Vec Ideal S64x768 .bf16)
    (v31 : Vec Ideal S1x1x512x64 .bf16) (v33 : Vec Ideal S64x768 .bf16) (v37 : Vec Ideal S1x1x512x64 .bf16)
    (v39 : Vec Ideal S64x768 .bf16) (v43 : Vec Ideal S1x1x512x64 .bf16) (v45 : Vec Ideal S64x768 .bf16)
    (r : Fin 512) (c : Fin 768) :
    k4_pay3 (F := Ideal) acc v25 v27 v31 v33 v37 v39 v43 v45 (ix2 r c)
      = acc (ix2 r c) + dotRow v25 v27 r c + dotRow v31 v33 r c + dotRow v37 v39 r c + dotRow v43 v45 r c := by
  unfold k4_pay3
  simp only [shapeCast_self]
  simp only [addf_apply]
  rw [headProduct, headProduct, headProduct, headProduct]

/-- Head 8's product alone. -/
theorem ninth (v49 : Vec Ideal S1x1x512x64 .bf16) (v51 : Vec Ideal S64x768 .bf16) (r : Fin 512) (c : Fin 768) :
    k4_pay4 (F := Ideal) v49 v51 (ix2 r c) = dotRow v49 v51 r c := by
  unfold k4_pay4
  simp only [shapeCast_self]
  rw [headProduct]

/-- Head 8's product and heads 9 to 11 added on to what heads 0 to 7 left, then the bias row; the result viewed with a
    leading unit axis. -/
theorem lastFour (acc : FVec Ideal S512x768 .f32) (p8 : FVec Ideal S512x768 .f32) (v55 : Vec Ideal S1x1x512x64 .bf16)
    (v57 : Vec Ideal S64x768 .bf16) (v61 : Vec Ideal S1x1x512x64 .bf16) (v63 : Vec Ideal S64x768 .bf16)
    (v67 : Vec Ideal S1x1x512x64 .bf16) (v69 : Vec Ideal S64x768 .bf16) (v73 : Vec Ideal S1x768 .f32)
    (u : Fin 1) (r : Fin 512) (c : Fin 768) :
    k4_pay1 (F := Ideal) acc p8 v55 v57 v61 v63 v67 v69 v73 (ix3 u r c)
      = acc (ix2 r c) + p8 (ix2 r c) + dotRow v55 v57 r c + dotRow v61 v63 r c + dotRow v67 v69 r c
          + v73 (ix2 (0 : Fin 1) c) := by
  unfold k4_pay1
  simp only [shapeCast_self]
  rw [shapeCast_ab_1ab_apply]
  simp only [addf_apply]
  rw [headProduct, headProduct, headProduct, broadcastTo_1b_ab_apply]

/-- A head's slice of the block and its 64 rows of the weight, read where they sit: the slice of head h starts at
    head coordinate h of the block, the weight slice at row 64·h. -/
theorem headAt (x0 : Vec Ideal S1x12x512x64 .bf16) (x1 : Vec Ideal S768x768 .bf16) (h : Fin 12)
    (off0 : Fin 4 → Nat) (off1 : Fin 2 → Nat)
    (inb0 : ∀ a, off0 a + S1x1x512x64.size a ≤ S1x12x512x64.size a)
    (inb1 : ∀ a, off1 a + S64x768.size a ≤ S768x768.size a)
    (a0 : off0 0 = 0) (a1 : off0 1 = h.val) (a2 : off0 2 = 0) (a3 : off0 3 = 0)
    (b0 : off1 0 = h.val * 64) (b1 : off1 1 = 0) (r : Fin 512) (c : Fin 768) :
    dotRow (View.ld x0 (Rect.unit (s := S1x12x512x64) off0 S1x1x512x64.size inb0))
        (View.ld x1 (Rect.unit (s := S768x768) off1 S64x768.size inb1)) r c
      = ∑ e : Fin 64, x0 (ix4 (0 : Fin 1) h r e) * x1 (ix2 (chan h e) c) := by
  unfold dotRow
  refine Finset.sum_congr rfl fun e _ => congrArg₂ (· * ·) ?_ ?_
  · show x0 _ = x0 _
    refine congrArg x0 (funext fun a => Fin.ext ?_)
    match a with
    | ⟨0, _⟩ => show off0 0 + 1 * 0 = 0; omega
    | ⟨1, _⟩ => show off0 1 + 1 * 0 = h.val; omega
    | ⟨2, _⟩ => show off0 2 + 1 * r.val = r.val; omega
    | ⟨3, _⟩ => show off0 3 + 1 * e.val = e.val; omega
  · show x1 _ = x1 _
    refine congrArg x1 (funext fun a => Fin.ext ?_)
    match a with
    | ⟨0, _⟩ => show off1 0 + 1 * e.val = h.val * 64 + e.val; omega
    | ⟨1, _⟩ => show off1 1 + 1 * c.val = c.val; omega

/-- A sum over the twelve heads, written out from zero, left to right. -/
theorem sum_twelve (f : Fin 12 → EReal) :
    ∑ h : Fin 12, f h = 0 + f 0 + f 1 + f 2 + f 3 + f 4 + f 5 + f 6 + f 7 + f 8 + f 9 + f 10 + f 11 := by
  simp only [Fin.sum_univ_castSucc, Fin.sum_univ_zero]
  rfl

theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- ENTRY (r, c) OF A TILE, from its three operand blocks: over the twelve heads and the 64 coordinates of each, block
    entry times weight entry, plus the bias row. -/
theorem blockEntry (x0 : Vec Ideal S1x12x512x64 .bf16) (x1 : Vec Ideal S768x768 .bf16) (x2 : Vec Ideal S1x768 .f32)
    (u : Fin 1) (r : Fin 512) (c : Fin 768) :
    out4_3 (F := Ideal) x0 x1 x2 (ix3 u r c)
      = (∑ h : Fin 12, ∑ e : Fin 64, x0 (ix4 (0 : Fin 1) h r e) * x1 (ix2 (chan h e) c)) + x2 (ix2 (0 : Fin 1) c) := by
  unfold out4_3
  rw [View.canon_unit_zero zeroOffsets3]
  rw [lastFour, nextFour, firstFour, ninth]
  rw [View.ld_unit_zero (S := S1x768) zeroOffsets2]
  refine congrArg (· + x2 (ix2 (0 : Fin 1) c)) ?_
  refine Eq.trans ?_
    (sum_twelve (fun h : Fin 12 => ∑ e : Fin 64, x0 (ix4 (0 : Fin 1) h r e) * x1 (ix2 (chan h e) c))).symm
  have E0 := headAt x0 x1 0 ![0, 0, 0, 0] ![0, 0] inb_S1x12x512x64_S1x1x512x64_0_0_0_0 inb_S768x768_S64x768_0_0 rfl rfl rfl rfl rfl rfl r c
  have E1 := headAt x0 x1 1 ![0, 1, 0, 0] ![64, 0] inb_S1x12x512x64_S1x1x512x64_0_1_0_0 inb_S768x768_S64x768_64_0 rfl rfl rfl rfl rfl rfl r c
  have E2 := headAt x0 x1 2 ![0, 2, 0, 0] ![128, 0] inb_S1x12x512x64_S1x1x512x64_0_2_0_0 inb_S768x768_S64x768_128_0 rfl rfl rfl rfl rfl rfl r c
  have E3 := headAt x0 x1 3 ![0, 3, 0, 0] ![192, 0] inb_S1x12x512x64_S1x1x512x64_0_3_0_0 inb_S768x768_S64x768_192_0 rfl rfl rfl rfl rfl rfl r c
  have E4 := headAt x0 x1 4 ![0, 4, 0, 0] ![256, 0] inb_S1x12x512x64_S1x1x512x64_0_4_0_0 inb_S768x768_S64x768_256_0 rfl rfl rfl rfl rfl rfl r c
  have E5 := headAt x0 x1 5 ![0, 5, 0, 0] ![320, 0] inb_S1x12x512x64_S1x1x512x64_0_5_0_0 inb_S768x768_S64x768_320_0 rfl rfl rfl rfl rfl rfl r c
  have E6 := headAt x0 x1 6 ![0, 6, 0, 0] ![384, 0] inb_S1x12x512x64_S1x1x512x64_0_6_0_0 inb_S768x768_S64x768_384_0 rfl rfl rfl rfl rfl rfl r c
  have E7 := headAt x0 x1 7 ![0, 7, 0, 0] ![448, 0] inb_S1x12x512x64_S1x1x512x64_0_7_0_0 inb_S768x768_S64x768_448_0 rfl rfl rfl rfl rfl rfl r c
  have E8 := headAt x0 x1 8 ![0, 8, 0, 0] ![512, 0] inb_S1x12x512x64_S1x1x512x64_0_8_0_0 inb_S768x768_S64x768_512_0 rfl rfl rfl rfl rfl rfl r c
  have E9 := headAt x0 x1 9 ![0, 9, 0, 0] ![576, 0] inb_S1x12x512x64_S1x1x512x64_0_9_0_0 inb_S768x768_S64x768_576_0 rfl rfl rfl rfl rfl rfl r c
  have E10 := headAt x0 x1 10 ![0, 10, 0, 0] ![640, 0] inb_S1x12x512x64_S1x1x512x64_0_10_0_0 inb_S768x768_S64x768_640_0 rfl rfl rfl rfl rfl rfl r c
  have E11 := headAt x0 x1 11 ![0, 11, 0, 0] ![704, 0] inb_S1x12x512x64_S1x1x512x64_0_11_0_0 inb_S768x768_S64x768_704_0 rfl rfl rfl rfl rfl rfl r c
  exact congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg₂ (· + ·)
    (congrArg (fun z : EReal => 0 + z) E0) E1) E2) E3) E4) E5) E6) E7) E8) E9) E10) E11

/-! ## From the tiles to the array -/

variable (V : (c : Dev nD) → (b : Ref sig .tc) → Buf (Elt Ideal) ((c : Thread nD τ).loc b))

/-- Tile t's input block sits at its output block's batch entry and position block, all heads and coordinates; the
    weight and the bias are the one block there is; the output block spans all 768 columns. -/
theorem blockIndices : ∀ t : Fin cfg4.N,
    win4_0.index t (0 : Fin 4) = win4_3.index t (0 : Fin 3) ∧ win4_0.index t (1 : Fin 4) = 0
    ∧ win4_0.index t (2 : Fin 4) = win4_3.index t (1 : Fin 3) ∧ win4_0.index t (3 : Fin 4) = 0
    ∧ win4_1.index t (0 : Fin 2) = 0 ∧ win4_1.index t (1 : Fin 2) = 0
    ∧ win4_2.index t (0 : Fin 2) = 0 ∧ win4_2.index t (1 : Fin 2) = 0
    ∧ win4_3.index t (2 : Fin 3) = 0 ∧ win4_3.index t (0 : Fin 3) ≤ 3 ∧ win4_3.index t (1 : Fin 3) ≤ 3 :=
  (by decide +kernel : ∀ t : Fin grid4.N, _)

/-- Every batch entry and every block of 512 positions is some tile's. -/
theorem blockRows : ∀ (q0 q1 : Fin 4), ∃ t : Fin cfg4.N, win4_3.index t = ![q0.val, q1.val, 0] :=
  (by decide +kernel : ∀ (q0 q1 : Fin 4), ∃ t : Fin grid4.N, win4_3.index t = ![q0.val, q1.val, 0])

/-- The attention-output block read at a local position is the attention output at the global one. -/
theorem readHeads (c : Dev nD) (t : Fin cfg4.N) (y : S1x12x512x64.Idx) (i : S4x12x2048x64.Idx)
    (h0 : (i 0).val = win4_0.index t 0 * 1 + (y 0).val) (h1 : (i 1).val = win4_0.index t 1 * 12 + (y 1).val)
    (h2 : (i 2).val = win4_0.index t 2 * 512 + (y 2).val) (h3 : (i 3).val = win4_0.index t 3 * 64 + (y 3).val) :
    iblk4 V c 0 t y = V c main_v22 i := by
  unfold iblk4
  rw [View.read_apply]
  show V c main_v22 (((cfg4.win 0).blk t).view.emb y) = V c main_v22 i
  refine congrArg _ (funext fun a => Fin.ext ?_)
  match a with
  | ⟨0, _⟩ => show win4_0.index t 0 * 1 + 1 * (y 0).val = (i 0).val; omega
  | ⟨1, _⟩ => show win4_0.index t 1 * 12 + 1 * (y 1).val = (i 1).val; omega
  | ⟨2, _⟩ => show win4_0.index t 2 * 512 + 1 * (y 2).val = (i 2).val; omega
  | ⟨3, _⟩ => show win4_0.index t 3 * 64 + 1 * (y 3).val = (i 3).val; omega

/-- The weight block is the whole weight. -/
theorem readWeight (c : Dev nD) (t : Fin cfg4.N) (y : S768x768.Idx) (i : S768x768.Idx)
    (h0 : (i 0).val = win4_1.index t 0 * 768 + (y 0).val) (h1 : (i 1).val = win4_1.index t 1 * 768 + (y 1).val) :
    iblk4 V c 1 t y = V c main_v9 i := by
  unfold iblk4
  rw [View.read_apply]
  show V c main_v9 (((cfg4.win 1).blk t).view.emb y) = V c main_v9 i
  refine congrArg _ (funext fun a => Fin.ext ?_)
  match a with
  | ⟨0, _⟩ => show win4_1.index t 0 * 768 + 1 * (y 0).val = (i 0).val; omega
  | ⟨1, _⟩ => show win4_1.index t 1 * 768 + 1 * (y 1).val = (i 1).val; omega

/-- The bias block is the whole bias row. -/
theorem readBias (c : Dev nD) (t : Fin cfg4.N) (y : S1x768.Idx) (i : S1x768.Idx)
    (h0 : (i 0).val = win4_2.index t 0 * 1 + (y 0).val) (h1 : (i 1).val = win4_2.index t 1 * 768 + (y 1).val) :
    iblk4 V c 2 t y = V c main_v1 i := by
  unfold iblk4
  rw [View.read_apply]
  show V c main_v1 (((cfg4.win 2).blk t).view.emb y) = V c main_v1 i
  refine congrArg _ (funext fun a => Fin.ext ?_)
  match a with
  | ⟨0, _⟩ => show win4_2.index t 0 * 1 + 1 * (y 0).val = (i 0).val; omega
  | ⟨1, _⟩ => show win4_2.index t 1 * 768 + 1 * (y 1).val = (i 1).val; omega

/-- What tile t writes back is its block of the projected array. -/
theorem tileWritten (c : Dev nD) (t : Fin cfg4.N) :
    (dat4 (F := Ideal) V c).flushed 3 t
      = ((cfg4.win 3).blk t).view.read (Elt Ideal) (headsOut (V c main_v22) (V c main_v9) (V c main_v1)) := by
  show (cfg4.win 3).cut (grid4.coords t) ((dat4 V c).after 3 t) = _
  rw [after4_3]
  obtain ⟨e0, e1, e2, e3, e4, e5, e6, e7, e8, e9, e10⟩ := blockIndices t
  funext j
  obtain ⟨u, r, d, rfl⟩ : ∃ (u : Fin 1) (r : Fin 512) (d : Fin 768), j = ix3 u r d := ⟨j 0, j 1, j 2, eq_ix3 j⟩
  show out4_3 (iblk4 V c 0 t) (iblk4 V c 1 t) (iblk4 V c 2 t) (ix3 u r d)
    = headsOut (V c main_v22) (V c main_v9) (V c main_v1) (((cfg4.win 3).blk t).view.emb (ix3 u r d))
  refine (blockEntry (iblk4 V c 0 t) (iblk4 V c 1 t) (iblk4 V c 2 t) u r d).trans ?_
  have hu : u.val = 0 := by have := u.isLt; omega
  have hr : r.val < 512 := r.isLt
  have hd : d.val < 768 := d.isLt
  have g0 : ((((cfg4.win 3).blk t).view.emb (ix3 u r d)) 0).val = win4_3.index t 0 * 1 + 1 * u.val := rfl
  have g1 : ((((cfg4.win 3).blk t).view.emb (ix3 u r d)) 1).val = win4_3.index t 1 * 512 + 1 * r.val := rfl
  have g2 : ((((cfg4.win 3).blk t).view.emb (ix3 u r d)) 2).val = win4_3.index t 2 * 768 + 1 * d.val := rfl
  unfold headsOut headsOutAt
  refine congrArg₂ (· + ·)
    (Finset.sum_congr rfl fun h _ => Finset.sum_congr rfl fun e _ => congrArg₂ (· * ·) ?_ ?_) ?_
  · exact readHeads V c t (ix4 (0 : Fin 1) h r e) _
      (by show _ = win4_0.index t 0 * 1 + 0; rw [g0]; omega)
      (by show h.val = win4_0.index t 1 * 12 + h.val; omega)
      (by show _ = win4_0.index t 2 * 512 + r.val; rw [g1]; omega)
      (by show e.val = win4_0.index t 3 * 64 + e.val; omega)
  · exact readWeight V c t (ix2 (chan h e) d) _
      (by show (chan h e).val = win4_1.index t 0 * 768 + (chan h e).val; omega)
      (by show _ = win4_1.index t 1 * 768 + d.val; rw [g2]; omega)
  · exact readBias V c t (ix2 (0 : Fin 1) d) _ (by show (0 : Nat) = win4_2.index t 0 * 1 + 0; omega)
      (by show _ = win4_2.index t 1 * 768 + d.val; rw [g2]; omega)

/-- A position of the result is in tile t's block exactly when each of its coordinates is in the block's range. -/
theorem inBlock (t : Fin cfg4.N) (i : S4x2048x768.Idx) :
    i ∈ ((cfg4.win 3).blk t).view.set ↔ ∀ a : Fin 3, win4_3.index t a * S1x512x768.size a ≤ (i a).val
      ∧ (i a).val < win4_3.index t a * S1x512x768.size a + S1x512x768.size a := by
  show i ∈ ((View.whole main_v23).slice (win4_3.rect t)).set ↔ _
  rw [View.set_slice_whole, Rect.mem_set_unit]
  exact Iff.rfl

/-- The sixteen tiles cover the result: position n of batch entry b belongs to the tile at (b, n / 512). -/
theorem tilesCover (i : S4x2048x768.Idx) :
    ∃ t : Fin cfg4.N, (cfg4.win 3).flush t = true ∧ i ∈ ((cfg4.win 3).blk t).view.set := by
  have hi0 : (i 0).val < 4 := (i 0).isLt
  have hi1 : (i 1).val < 2048 := (i 1).isLt
  have hi2 : (i 2).val < 768 := (i 2).isLt
  obtain ⟨t, ht⟩ := blockRows ⟨(i 0).val, hi0⟩ ⟨(i 1).val / 512, by omega⟩
  have q0 : win4_3.index t (0 : Fin 3) = (i 0).val := congrFun ht 0
  have q1 : win4_3.index t (1 : Fin 3) = (i 1).val / 512 := congrFun ht 1
  have q2 : win4_3.index t (2 : Fin 3) = 0 := congrFun ht 2
  refine ⟨t, flush4_3 t, ?_⟩
  rw [inBlock]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 512 ≤ (i 1).val ∧ (i 1).val < win4_3.index t (1 : Fin 3) * 512 + 512; omega
  | ⟨2, _⟩ => show win4_3.index t (2 : Fin 3) * 768 ≤ (i 2).val ∧ (i 2).val < win4_3.index t (2 : Fin 3) * 768 + 768; omega

/-- THE RESULT ARRAY of the output projection, whatever the region finds in its three operands. -/
theorem result (c : Dev nD) :
    (dat4 (F := Ideal) V c).arrAt 3 cfg4.N = Cert.Attention.headsOut (V c main_v22) (V c main_v9) (V c main_v1) :=
  (dat4 (F := Ideal) V c).arrAt_eq_of_cover 3 (headsOut (V c main_v22) (V c main_v9) (V c main_v1))
    (fun t _ => tileWritten V c t) tilesCover

end Cert.KernelIdeal.OutProjection

end
-- ==== Proof.ReferenceAttention.lean ====
/-
  The reference's attention stage, read as the shared functions.  The reference scales each query coordinate by 1/8
  before the inner product with the key row; since 1/8 is a non-negative finite number it distributes over the sum of
  64 products, so the score is the scaled inner product plus the bias.  Its softmax takes the row maximum from −∞ and
  then the maximum of that with −∞ once more, which changes nothing; subtracts it, exponentiates, sums the row from
  zero, and divides.  The head's output is the weights' average of the value rows.  So the stage is `attend` of the
  reference's own per-head queries, keys and values and the bias.
-/
import proofs.«159598_j32796370272889_2_alg».proof.Proof.Gen.ReferenceIdeal.Read
import proofs.«159598_j32796370272889_2_alg».proof.Proof.AttentionSpec
import Idealize.ShloMosaic.PureOps.Reduce
import Idealize.ShloMosaic.PureOps.Ideal.Laws
import Idealize.ShloMosaic.Lib.ValueIdx

noncomputable section

open scoped BigOperators

namespace Cert.ReferenceIdeal.AttentionValue

open Cert.ReferenceIdeal Cert.ReferenceIdeal.Gen Idealize.ShloMosaic Idealize.ShloMosaic.ValueIdx Cert.Attention

/-- A non-negative finite scalar distributes over a finite sum of extended reals. -/
theorem sum_mul_scalar {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- THE ONE LAW: scaling each query coordinate before the inner product is scaling the inner product. -/
theorem scaled_inner {n : Nat} (q k : Fin n → EReal) {c : EReal} (h0 : 0 ≤ c) (ht : c ≠ ⊤) :
    ∑ e : Fin n, (q e * c) * k e = (∑ e : Fin n, q e * k e) * c := by
  rw [← sum_mul_scalar _ _ h0 ht]
  exact Finset.sum_congr rfl fun e _ => mul_right_comm _ _ _

/-- The scale is the real number 1/8. -/
theorem eighth_eq : Ideal.ofBits .f32 0x3E000000#32 = (((1 / 8 : ℝ)) : EReal) := by
  simp [Ideal.ofBits, Ideal.ieee, -EReal.coe_mul]; norm_num

theorem eighth_nonneg : (0 : EReal) ≤ Ideal.ofBits .f32 0x3E000000#32 := by
  rw [eighth_eq]; exact EReal.coe_nonneg.mpr (by norm_num)

theorem eighth_ne_top : Ideal.ofBits .f32 0x3E000000#32 ≠ ⊤ := by
  rw [eighth_eq]; exact EReal.coe_ne_top _

/-- Taking the maximum with −∞ changes nothing. -/
theorem neg_inf_max (y : EReal) : max (Ideal.ofBits .f32 0xFF800000#32) y = y := by
  simp [Ideal.ofBits, Ideal.ieee]

/-- The row of the score array that a reduction over its last axis reads at (b, h, n). -/
theorem lift_row (hR : S4x12x2048x2048.Reduces [3] S4x12x2048) (b : Fin 4) (h : Fin 12) (n : Fin 2048)
    (k : Fin (S4x12x2048x2048.size 3)) : hR.lift (ix3 b h n) k = ix4 b h n (⟨k.val, k.isLt⟩ : Fin 2048) := by
  funext c; apply Fin.ext
  fin_cases c <;> rfl

/-- The score at an index: the inner product with the query scaled first is the scaled inner product. -/
theorem v14_at (x0 x1 : (⟨S4x2048x768, .f32⟩ : BufTy).Contents (Elt Ideal)) (x3 : (⟨S12x2048x2048, .f32⟩ : BufTy).Contents (Elt Ideal))
    (x4 x5 : (⟨S768x768, .f32⟩ : BufTy).Contents (Elt Ideal)) (b : Fin 4) (h : Fin 12) (n m : Fin 2048) :
    Read.val_main_v14 (F := Ideal) x0 x1 x3 x4 x5 (ix4 b h n m)
      = score (Read.val_main_v4 (F := Ideal) x0 x4) (Read.val_main_v8 (F := Ideal) x1 x5) x3 b h n m := by
  rw [Read.val_main_v14_apply, Read.val_main_v11_apply, Read.val_main_v13_apply, Read.val_main_v12_apply]
  have el : ∀ k, Read.lidx_main_v11 (ix4 b h n m) k = ix4 b h n k := fun k => funext fun a => Fin.ext (by match a with | ⟨0, _⟩ => rfl | ⟨1, _⟩ => rfl | ⟨2, _⟩ => rfl | ⟨3, _⟩ => rfl)
  have er : ∀ k, Read.ridx_main_v11 (ix4 b h n m) k = ix4 b h m k := fun k => funext fun a => Fin.ext (by match a with | ⟨0, _⟩ => rfl | ⟨1, _⟩ => rfl | ⟨2, _⟩ => rfl | ⟨3, _⟩ => rfl)
  have eb : Read.idx_main_v12 (Read.idx_main_v13 (ix4 b h n m)) = ix3 h n m := funext fun a => Fin.ext (by match a with | ⟨0, _⟩ => rfl | ⟨1, _⟩ => rfl | ⟨2, _⟩ => rfl)
  simp only [el, er, eb, Read.val_main_v6_apply, Read.val_main_v5_apply, Read.val_main_cst_apply]
  generalize Read.val_main_v4 (F := Ideal) x0 x4 = Q
  generalize Read.val_main_v8 (F := Ideal) x1 x5 = K
  unfold score
  show (∑ k : Fin 64, (Q (ix4 b h n k) * Ideal.ofBits .f32 0x3E000000#32) * K (ix4 b h m k)) + x3 (ix3 h n m) = _
  rw [scaled_inner (fun k => Q (ix4 b h n k)) (fun k => K (ix4 b h m k)) eighth_nonneg eighth_ne_top]

/-- The host's maximum over key positions at (b, h, n) is the row maximum of the scores. -/
theorem v15_at (x0 x1 : (⟨S4x2048x768, .f32⟩ : BufTy).Contents (Elt Ideal)) (x3 : (⟨S12x2048x2048, .f32⟩ : BufTy).Contents (Elt Ideal))
    (x4 x5 : (⟨S768x768, .f32⟩ : BufTy).Contents (Elt Ideal)) (b : Fin 4) (h : Fin 12) (n : Fin 2048) :
    Read.val_main_v15 (F := Ideal) x0 x1 x3 x4 x5 (ix3 b h n)
      = rowMax (fun m : Fin 2048 => Read.val_main_v14 (F := Ideal) x0 x1 x3 x4 x5 (ix4 b h n m)) := by
  unfold Read.val_main_v15
  generalize Read.val_main_v14 (F := Ideal) x0 x1 x3 x4 x5 = y
  have hR : S4x12x2048x2048.Reduces [3] S4x12x2048 := by decide
  refine (Host.reduce_eq_fold_single (α := EReal) (max : EReal → EReal → EReal) y _
    reducesTo_S4x12x2048x2048_S4x12x2048_d3 hR h_S_ (ix3 b h n)).trans ?_
  have hf : (y ∘ hR.lift (ix3 b h n)) = fun m : Fin 2048 => y (ix4 b h n m) :=
    funext fun k => congrArg y (lift_row hR b h n k)
  rw [hf]
  rfl

/-- The exponential stage: exp of the score minus its row's maximum. -/
theorem v21_at (x0 x1 : (⟨S4x2048x768, .f32⟩ : BufTy).Contents (Elt Ideal)) (x3 : (⟨S12x2048x2048, .f32⟩ : BufTy).Contents (Elt Ideal))
    (x4 x5 : (⟨S768x768, .f32⟩ : BufTy).Contents (Elt Ideal)) (b : Fin 4) (h : Fin 12) (n m : Fin 2048) :
    Read.val_main_v21 (F := Ideal) x0 x1 x3 x4 x5 (ix4 b h n m)
      = Ideal.exp (Read.val_main_v14 (F := Ideal) x0 x1 x3 x4 x5 (ix4 b h n m)
          - rowMax (fun k : Fin 2048 => Read.val_main_v14 (F := Ideal) x0 x1 x3 x4 x5 (ix4 b h n k))) := by
  rw [Read.val_main_v21_apply, Read.val_main_v20_apply, Read.val_main_v19_apply, Read.val_main_v18_apply,
    Read.val_main_v17_apply, Read.val_main_v16_apply, Read.val_main_cst_1_apply]
  have e1 : Read.idx_main_v18 (Read.idx_main_v19 (ix4 b h n m)) = ix3 b h n := funext fun a => Fin.ext (by match a with | ⟨0, _⟩ => rfl | ⟨1, _⟩ => rfl | ⟨2, _⟩ => rfl)
  rw [e1, v15_at]
  show Ideal.exp (_ - max (Ideal.ofBits .f32 0xFF800000#32) _) = _
  rw [neg_inf_max]

/-- The normalised weight: the exponential over the row's sum of exponentials. -/
theorem v25_at (x0 x1 : (⟨S4x2048x768, .f32⟩ : BufTy).Contents (Elt Ideal)) (x3 : (⟨S12x2048x2048, .f32⟩ : BufTy).Contents (Elt Ideal))
    (x4 x5 : (⟨S768x768, .f32⟩ : BufTy).Contents (Elt Ideal)) (b : Fin 4) (h : Fin 12) (n m : Fin 2048) :
    Read.val_main_v25 (F := Ideal) x0 x1 x3 x4 x5 (ix4 b h n m)
      = softRow (fun k : Fin 2048 => Read.val_main_v14 (F := Ideal) x0 x1 x3 x4 x5 (ix4 b h n k)) m := by
  rw [Read.val_main_v25_apply, Read.val_main_v24_apply, Read.val_main_v23_apply, Read.val_main_v22_apply,
    Read.val_main_cst_2_apply]
  have e1 : Read.idx_main_v23 (Read.idx_main_v24 (ix4 b h n m)) = ix3 b h n := funext fun a => Fin.ext (by match a with | ⟨0, _⟩ => rfl | ⟨1, _⟩ => rfl | ⟨2, _⟩ => rfl)
  have e2 : ∀ k, Read.idx_main_v22 (ix3 b h n) k = ix4 b h n k := fun k => funext fun a => Fin.ext (by match a with | ⟨0, _⟩ => rfl | ⟨1, _⟩ => rfl | ⟨2, _⟩ => rfl | ⟨3, _⟩ => rfl)
  simp only [e1, e2, v21_at]
  unfold softRow
  show Ideal.div _ (Ideal.ofBits .f32 0x00000000#32 + _) = _
  rw [Ideal.ofBits_zero_f32, zero_add]

/-- One head's output at (b, h, n, e). -/
theorem v26_at (x0 x1 x2 : (⟨S4x2048x768, .f32⟩ : BufTy).Contents (Elt Ideal)) (x3 : (⟨S12x2048x2048, .f32⟩ : BufTy).Contents (Elt Ideal))
    (x4 x5 x6 : (⟨S768x768, .f32⟩ : BufTy).Contents (Elt Ideal)) (b : Fin 4) (h : Fin 12) (n : Fin 2048) (e : Fin 64) :
    Read.val_main_v26 (F := Ideal) x0 x1 x2 x3 x4 x5 x6 (ix4 b h n e)
      = attendAt (Read.val_main_v4 (F := Ideal) x0 x4) (Read.val_main_v8 (F := Ideal) x1 x5)
          (Read.val_main_v10 (F := Ideal) x2 x6) x3 b h n e := by
  rw [Read.val_main_v26_apply]
  have el : ∀ k, Read.lidx_main_v26 (ix4 b h n e) k = ix4 b h n k := fun k => funext fun a => Fin.ext (by match a with | ⟨0, _⟩ => rfl | ⟨1, _⟩ => rfl | ⟨2, _⟩ => rfl | ⟨3, _⟩ => rfl)
  have er : ∀ k, Read.ridx_main_v26 (ix4 b h n e) k = ix4 b h k e := fun k => funext fun a => Fin.ext (by match a with | ⟨0, _⟩ => rfl | ⟨1, _⟩ => rfl | ⟨2, _⟩ => rfl | ⟨3, _⟩ => rfl)
  simp only [el, er, v25_at, v14_at]
  rfl

/-- THE REFERENCE'S ATTENTION STAGE is `attend` of its own queries, keys and values per head and the bias. -/
theorem ref_attend (x0 x1 x2 : (⟨S4x2048x768, .f32⟩ : BufTy).Contents (Elt Ideal)) (x3 : (⟨S12x2048x2048, .f32⟩ : BufTy).Contents (Elt Ideal))
    (x4 x5 x6 : (⟨S768x768, .f32⟩ : BufTy).Contents (Elt Ideal)) :
    Read.val_main_v26 (F := Ideal) x0 x1 x2 x3 x4 x5 x6
      = Cert.Attention.attend (Read.val_main_v4 (F := Ideal) x0 x4) (Read.val_main_v8 (F := Ideal) x1 x5)
          (Read.val_main_v10 (F := Ideal) x2 x6) x3 := by
  funext i
  obtain ⟨b, h, n, e, rfl⟩ : ∃ (b : Fin 4) (h : Fin 12) (n : Fin 2048) (e : Fin 64), i = ix4 b h n e :=
    ⟨i 0, i 1, i 2, i 3, eq_ix4 i⟩
  exact v26_at x0 x1 x2 x3 x4 x5 x6 b h n e

end Cert.ReferenceIdeal.AttentionValue

end
-- ==== Proof.KernelValue.lean ====
/-
  The tiled program's result array, as one function of the nine arguments: the reference's.

  Read backwards from the result.  The output projection region leaves `headsOut` of the attention output, the
  transposed output weight and the bias row, as it finds them.  The attention output is what the attention region
  left: `attend` of the per-head queries, keys and values and the bias.  Each of those three is a projection region's
  output recast and with its position and head axes swapped, and each projection's output is the layer — rows of the
  input against rows of the weight — flattened.  At every step the array is the reference's own stage function of the
  arguments, so the last one is the reference's result.
-/
import proofs.«159598_j32796370272889_2_alg».proof.Proof.Gen.KernelIdeal.Frame
import proofs.«159598_j32796370272889_2_alg».proof.Proof.Boundaries
import proofs.«159598_j32796370272889_2_alg».proof.Proof.ProjectionsAgree
import proofs.«159598_j32796370272889_2_alg».proof.Proof.OutputAgree
import proofs.«159598_j32796370272889_2_alg».proof.Proof.AttentionRegion
import proofs.«159598_j32796370272889_2_alg».proof.Proof.OutputProjection
import proofs.«159598_j32796370272889_2_alg».proof.Proof.ReferenceAttention

set_option maxRecDepth 16384

noncomputable section

namespace Cert.KernelIdeal.Value

open Cert.KernelIdeal Cert.KernelIdeal.Gen Cert.Attention
open Idealize.ShloMosaic Idealize.ShloMosaic.TcCoe Idealize.SL.Sem

variable (m : (ℓ : Loc nD τ sig) → Buf (Elt Ideal) ℓ) (ρ : Dev nD → PrngReg) (c : Dev nD)

/-- Queries per head, as the attention region finds them, are the reference's. -/
theorem queries : (V5 (F := Ideal) m ρ c main_v17 : Heads.Idx → EReal)
    = Cert.ReferenceIdeal.Read.val_main_v4 (F := Ideal) (m ((c : Thread nD τ).loc main_arg0)) (m ((c : Thread nD τ).loc main_arg4)) := by
  rw [Boundaries.v17, Boundaries.out13, Boundaries.v10, Boundaries.v3, Boundaries.v0, Bridge.flat_proj]
  refine (congrArg (fun z => transpose S4x12x2048x64 [0, 2, 1, 3] z transposes_S4x2048x12x64_S4x12x2048x64_0_2_1_3)
    (Bridge.shapeCast_comp (Bridge.rowsDot _ _) shapeCasts_S4x2048x768_S8192x768 shapeCasts_S8192x768_S4x2048x12x64
      Cert.ReferenceIdeal.Facts₀.shapeCasts_S4x2048x768_S4x2048x12x64)).trans ?_
  rw [← Bridge.ref_v0]
  rfl

/-- Keys per head, as the attention region finds them, are the reference's. -/
theorem keys : (V5 (F := Ideal) m ρ c main_v19 : Heads.Idx → EReal)
    = Cert.ReferenceIdeal.Read.val_main_v8 (F := Ideal) (m ((c : Thread nD τ).loc main_arg1)) (m ((c : Thread nD τ).loc main_arg5)) := by
  rw [Boundaries.v19, Boundaries.out14, Boundaries.v11, Boundaries.v5, Boundaries.v0, Bridge.flat_proj]
  refine (congrArg (fun z => transpose S4x12x2048x64 [0, 2, 1, 3] z transposes_S4x2048x12x64_S4x12x2048x64_0_2_1_3)
    (Bridge.shapeCast_comp (Bridge.rowsDot _ _) shapeCasts_S4x2048x768_S8192x768 shapeCasts_S8192x768_S4x2048x12x64
      Cert.ReferenceIdeal.Facts₀.shapeCasts_S4x2048x768_S4x2048x12x64)).trans ?_
  rw [← Bridge.ref_v1]
  rfl

/-- Values per head, as the attention region finds them, are the reference's. -/
theorem values : (V5 (F := Ideal) m ρ c main_v21 : Heads.Idx → EReal)
    = Cert.ReferenceIdeal.Read.val_main_v10 (F := Ideal) (m ((c : Thread nD τ).loc main_arg2)) (m ((c : Thread nD τ).loc main_arg6)) := by
  rw [Boundaries.v21, Boundaries.out15, Boundaries.v12, Boundaries.v7, Boundaries.v0, Bridge.flat_proj]
  refine (congrArg (fun z => transpose S4x12x2048x64 [0, 2, 1, 3] z transposes_S4x2048x12x64_S4x12x2048x64_0_2_1_3)
    (Bridge.shapeCast_comp (Bridge.rowsDot _ _) shapeCasts_S4x2048x768_S8192x768 shapeCasts_S8192x768_S4x2048x12x64
      Cert.ReferenceIdeal.Facts₀.shapeCasts_S4x2048x768_S4x2048x12x64)).trans ?_
  rw [← Bridge.ref_v2]
  rfl

/-- What the attention region leaves is the reference's attention stage. -/
theorem attended : (V6 (F := Ideal) m ρ c main_v22 : Heads.Idx → EReal)
    = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show V6 (F := Ideal) m ρ c main_v22
        = attend (V5 m ρ c main_v17) (V5 m ρ c main_v19) (V5 m ρ c main_v21) (V5 m ρ c main_arg3) from
      (W6_arr m ρ c 4).trans (AttentionRegion.result (V5 m ρ) c),
    queries, keys, values, Boundaries.bias, ← Cert.ReferenceIdeal.AttentionValue.ref_attend]

/-- THE KERNEL'S RESULT ARRAY is the reference's result, as one function of the nine arguments. -/
theorem value : (dat4 (F := Ideal) (V6 m ρ) c).arrAt 3 cfg4.N
    = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [OutProjection.result (V6 m ρ) c, attended, Boundaries.weightOut, Boundaries.biasOut, Boundaries.v9, Boundaries.v1]
  funext i
  rw [Bridge.out_agree _ _ _ _ _ _ Cert.ReferenceIdeal.Facts₀.transposes_S4x12x2048x64_S4x2048x12x64_0_2_1_3
      Cert.ReferenceIdeal.Facts₀.shapeCasts_S4x2048x12x64_S4x2048x768 i,
    Bridge.ref_v32 _ _ _ _ _ _ _ _ _ Cert.ReferenceIdeal.Facts₀.transposes_S4x12x2048x64_S4x2048x12x64_0_2_1_3
      Cert.ReferenceIdeal.Facts₀.shapeCasts_S4x2048x12x64_S4x2048x768 i]

end Cert.KernelIdeal.Value

end
-- ==== Proof.lean ====
/-
  Multi-head attention with an additive relative-position bias, computed two ways, gives the same result on extended
  reals, element by element.

  Both programs project the inputs to queries, keys and values (rows of the input against rows of a weight matrix),
  split the 768 channels into twelve heads of 64 coordinates, score every query position against every key position
  (inner product over the head's coordinates, scaled by 1/8, plus the bias), take the softmax of each row of scores,
  average the value rows with those weights, and project the concatenated heads back to 768 channels with a bias.
  They differ in arrangement only: one tiles every stage into blocks, multiplies by transposed weights, scales the
  score after the inner product where the other scales the query before it, adds a zero bias row to each projection,
  and sums the output projection head by head.  Scaling by a non-negative finite number distributes over a finite sum
  of extended reals, adding zero and taking the maximum with −∞ change nothing, and a sum over 768 channels is a sum
  over heads of sums over coordinates; everything else is reading the same entries in a different order.

  The run of the tiled program ends with its result array at the reference's result function of the nine arguments
  (the modules imported below), the reference's run ends at the same function, and arguments that agree give equal
  results.  Each program terminates without a fault and leaves its arguments unchanged; the tiled program's printed
  and idealized forms are the same text, so there is nothing to preserve.
-/
import proofs.«159598_j32796370272889_2_alg».proof.Defs
import proofs.«159598_j32796370272889_2_alg».proof.Proof.Gen.Kernel
import proofs.«159598_j32796370272889_2_alg».proof.Proof.Gen.Kernel.Skeleton
import proofs.«159598_j32796370272889_2_alg».proof.Proof.Gen.Kernel.Launch
import proofs.«159598_j32796370272889_2_alg».proof.Proof.Gen.Kernel.Points
import proofs.«159598_j32796370272889_2_alg».proof.Proof.Gen.Kernel.Frame
import proofs.«159598_j32796370272889_2_alg».proof.Proof.Gen.KernelIdeal
import proofs.«159598_j32796370272889_2_alg».proof.Proof.Gen.KernelIdeal.Skeleton
import proofs.«159598_j32796370272889_2_alg».proof.Proof.Gen.KernelIdeal.Launch
import proofs.«159598_j32796370272889_2_alg».proof.Proof.Gen.KernelIdeal.Points
import proofs.«159598_j32796370272889_2_alg».proof.Proof.Gen.KernelIdeal.Frame
import proofs.«159598_j32796370272889_2_alg».proof.Proof.Gen.ReferenceIdeal
import proofs.«159598_j32796370272889_2_alg».proof.Proof.Gen.Pre_finite_inputs
import proofs.«159598_j32796370272889_2_alg».proof.Proof.Gen.ReferenceIdeal.Run
import proofs.«159598_j32796370272889_2_alg».proof.Proof.Gen.ReferenceIdeal.Read
import proofs.«159598_j32796370272889_2_alg».proof.Proof.KernelRun
import proofs.«159598_j32796370272889_2_alg».proof.Proof.KernelValue
import Idealize.ShloMosaic.Adequacy
import Idealize.ShloMosaic.Init

noncomputable section

namespace Cert.Proof

open Idealize.ShloMosaic Idealize.SL.Sem

/-- The printed program runs, nothing faults, the arguments end unchanged. -/
theorem frame_kernel : Cert.frame_Kernel := fun m ρ _ => Cert.Kernel.Gen.frame m ρ

/-- The same of its reading on extended reals. -/
theorem frame_kernelIdeal : Cert.frame_KernelIdeal := fun m ρ _ => Cert.KernelIdeal.Gen.frame m ρ

/-- The reference runs: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the printed program and its reading on extended reals. -/
theorem preserves : Cert.preserves_Kernel_KernelIdeal := trivial

/-- From memories that agree on the nine arguments both programs end with the same result array: the reference's
    result function of the arguments. -/
theorem algebraic : Cert.algebraic_KernelIdeal_ReferenceIdeal := by
  intro m ρ m' ρ' _ hagree
  refine ⟨fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Value.value m ρ c), (h c).2⟩)
      (Cert.KernelIdeal.WholeRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v32_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
